-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S512 : Shape := ⟨1, ![512]⟩
abbrev S512x256 : Shape := ⟨2, ![512, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S512 .f32) (main_arg5 : FVec F S512 .f32) (main_arg6 : FVec F S512x256 .f32) (main_arg7 : FVec F S256 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x256 .f32) (main_arg1 : FVec F S8x2048x2048 .f32) (main_arg2 : FVec F S256x256 .f32) (main_arg3 : FVec F S256 .f32) (main_arg4 : FVec F S512 .f32) (main_arg5 : FVec F S512 .f32) (main_arg6 : FVec F S512x256 .f32) (main_arg7 : FVec F S256 .f32) (main_arg8 : FVec F S256x256 .f32) (main_arg9 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S512 : Shape := ⟨1, ![512]⟩
abbrev S512x256 : Shape := ⟨2, ![512, 256]⟩
abbrev S1x512x2048 : Shape := ⟨3, ![1, 512, 2048]⟩
abbrev S1x2048x256 : Shape := ⟨3, ![1, 2048, 256]⟩
abbrev S1x512x256 : Shape := ⟨3, ![1, 512, 256]⟩
abbrev S2048x256 : Shape := ⟨2, ![2048, 256]⟩
abbrev S1x256 : Shape := ⟨2, ![1, 256]⟩
abbrev S512x2048 : Shape := ⟨2, ![512, 2048]⟩
abbrev S512x1 : Shape := ⟨2, ![512, 1]⟩
abbrev S512x512 : Shape := ⟨2, ![512, 512]⟩
abbrev S1x512 : Shape := ⟨2, ![1, 512]⟩

abbrev nBuf : Space → Nat
  | .hbm => 11
  | .vmem => 15
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S8x2048x256, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x256, .f32⟩
  | .local _ .vmem, ⟨3, _⟩ => ⟨S1x2048x256, .f32⟩
  | .local _ .vmem, ⟨4, _⟩ => ⟨S256x256, .f32⟩
  | .local _ .vmem, ⟨5, _⟩ => ⟨S256, .f32⟩
  | .local _ .vmem, ⟨6, _⟩ => ⟨S512, .f32⟩
  | .local _ .vmem, ⟨7, _⟩ => ⟨S512, .f32⟩
  | .local _ .vmem, ⟨8, _⟩ => ⟨S512x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S1x512x256, .f32⟩
  | .local _ .vmem, ⟨13, _⟩ => ⟨S1x512x256, .f32⟩
  | .local _ .vmem, ⟨14, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  h_S1x512x256 : 0 < S1x512x256.numel
  shapeCasts_S1x512x256_S512x256 : S1x512x256.ShapeCasts S512x256
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  broadcasts_S512x1_S512x256 : S512x1.Broadcasts S512x256
  concatenates_S512x256_S512x256_S512x512_d1 : Shape.Concatenates [S512x256, S512x256] S512x512 1
  reduces_S512x512_S512 : S512x512.Reduces [1] S512
  broadcasts_S512x1_S512x512 : S512x1.Broadcasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  broadcasts_S1x256_S512x256 : S1x256.Broadcasts S512x256
  inb_S1x512x256_S1x512x256_0_0_0 : ∀ a, (![0, 0, 0] : Fin 3 → Nat) a + S1x512x256.size a ≤ S1x512x256.size a
  shapeCasts_S512x256_S1x512x256 : S512x256.ShapeCasts S1x512x256
  dot_S2048x256_S256x256_S2048x256_1_0_0_1_n_n_wf : DotDims.WF S2048x256 S256x256 S2048x256 [1] [0] [0] [1] [] []
  dot_S512x2048_S2048x256_S512x256_1_0_0_1_n_n_wf : DotDims.WF S512x2048 S2048x256 S512x256 [1] [0] [0] [1] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x256.size a ≤ S8x2048x256.size a
  hwx0_10 : ∀ i : grid0.Coords, EltTy.bits .f32 = 32 ∨ (Rect.block (s := S8x2048x256) S1x512x256.size (cc0_transform_10 i) (hinb0_10 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1x512x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S512 : Shape := ⟨1, ![512]⟩
abbrev S512x256 : Shape := ⟨2, ![512, 256]⟩
abbrev S_ : Shape := ⟨0, ![]⟩
abbrev S8x2048 : Shape := ⟨2, ![8, 2048]⟩
abbrev S8x2048x1 : Shape := ⟨3, ![8, 2048, 1]⟩
abbrev S1x1x256 : Shape := ⟨3, ![1, 1, 256]⟩
abbrev S8x2048x512 : Shape := ⟨3, ![8, 2048, 512]⟩
abbrev S1x1x512 : Shape := ⟨3, ![1, 1, 512]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x256, .f32⟩
  | .hbm, ⟨25, _⟩ => ⟨S1x1x256, .f32⟩
  | .hbm, ⟨26, _⟩ => ⟨S8x2048x256, .f32⟩
  | .hbm, ⟨27, _⟩ => ⟨S8x2048x256, .f32⟩
  | .hbm, ⟨28, _⟩ => ⟨S8x2048x256, .f32⟩
  | .hbm, ⟨29, _⟩ => ⟨S8x2048x512, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x512, .f32⟩
  | .hbm, ⟨46, _⟩ => ⟨S8x2048x512, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x512, .f32⟩
  | .hbm, ⟨52, _⟩ => ⟨S8x2048x512, .f32⟩
  | .hbm, ⟨53, _⟩ => ⟨S1x1x512, .f32⟩
  | .hbm, ⟨54, _⟩ => ⟨S8x2048x512, .f32⟩
  | .hbm, ⟨55, _⟩ => ⟨S8x2048x512, .f32⟩
  | .hbm, ⟨56, _⟩ => ⟨S1x1x512, .f32⟩
  | .hbm, ⟨57, _⟩ => ⟨S8x2048x512, .f32⟩
  | .hbm, ⟨58, _⟩ => ⟨S8x2048x512, .f32⟩
  | .hbm, ⟨59, _⟩ => ⟨S8x2048x256, .f32⟩
  | .hbm, ⟨60, _⟩ => ⟨S1x1x256, .f32⟩
  | .hbm, ⟨61, _⟩ => ⟨S8x2048x256, .f32⟩
  | .hbm, ⟨62, _⟩ => ⟨S8x2048x256, .f32⟩
  | .hbm, ⟨63, _⟩ => ⟨S_, .f32⟩
  | .hbm, ⟨64, _⟩ => ⟨S8x2048x256, .f32⟩
  | .hbm, ⟨65, _⟩ => ⟨S8x2048x256, .f32⟩
  | .hbm, ⟨66, _⟩ => ⟨S8x2048x256, .f32⟩
  | .hbm, ⟨67, _⟩ => ⟨S1x1x256, .f32⟩
  | .hbm, ⟨68, _⟩ => ⟨S8x2048x256, .f32⟩
  | .hbm, ⟨69, _⟩ => ⟨S8x2048x256, .f32⟩
  | .hbm, ⟨70, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  concatenates_S8x2048x256_S8x2048x256_S8x2048x512_d2 : Shape.Concatenates [S8x2048x256, S8x2048x256] S8x2048x512 2
  reducesTo_S8x2048x512_S8x2048_d2 : S8x2048x512.ReducesTo [2] S8x2048
  bcast_S_S8x2048x1 : S_.BroadcastsInDim S8x2048x1 (![] : Fin 0 → Fin S8x2048x1.rank)
  bcast_S8x2048x1_S8x2048x512_0_1_2 : S8x2048x1.BroadcastsInDim S8x2048x512 (![0, 1, 2] : Fin 3 → Fin S8x2048x512.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S8x2048x256 : S_.BroadcastsInDim S8x2048x256 (![] : Fin 0 → Fin S8x2048x256.rank)
  dot_S8x2048x256_S256x256_S8x2048x256_2_0_01_1_n_n_wf : DotDims.WF S8x2048x256 S256x256 S8x2048x256 [2] [0] [0, 1] [1] [] []
  dot_S8x2048x2048_S8x2048x256_S8x2048x256_2_1_1_2_0_0_wf : DotDims.WF S8x2048x2048 S8x2048x256 S8x2048x256 [2] [1] [1] [2] [0] [0]
  dot_S8x2048x512_S512x256_S8x2048x256_2_0_01_1_n_n_wf : DotDims.WF S8x2048x512 S512x256 S8x2048x256 [2] [0] [0, 1] [1] [] []

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf
def dot_S8x2048x512_S512x256_S8x2048x256_2_0_01_1_n_n : DotDims S8x2048x512 S512x256 S8x2048x256 where
  lhsContracting := [2]
  rhsContracting := [0]
  lhsNonContracting := [0, 1]
  rhsNonContracting := [1]
  lhsBatch := []
  rhsBatch := []
  wf := dot_S8x2048x512_S512x256_S8x2048x256_2_0_01_1_n_n_wf

class Facts : Prop extends Facts₀ where

variable [Facts]
-- ==== Proof.KernelPieces.lean ====
import proofs.«127817_j23845658427999_2_alg».proof.Proof.Gen.KernelIdeal.Value
import Idealize.ShloMosaic.Lib.Pipeline.Value
import Idealize.ShloMosaic.Lib.Tactic

/-!
# What one grid point's body leaves, as values of its blocks

At any float instance: at a batch's first tile the body leaves the batch's messages (`k0_pay2` of the feature slab, the
message weights and bias) in the scratch, and at every tile it stores `k0_pay1` of the tile's feature rows (the
slab's 512 rows from `512 · q`), the tile's logit rows, the messages in scratch and the parameters.
-/

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The tile's feature rows: the 512 rows of the batch's feature slab from row `512 · q`. -/
abbrev tileRows (i : grid0.Coords) (x1 : Vec F S1x2048x256 .f32) : Vec F S1x512x256 .f32 :=
  View.ld x1 (Rect.unit (s := S1x2048x256) (k0_off1 i) S1x512x256.size (k0_off1_inb i))

/-- What a point stores, from its tile rows, its logit rows `x0`, the messages `sc` and the parameters. -/
abbrev stored (i : grid0.Coords) (x0 : Vec F S1x512x2048 .f32) (x1 : Vec F S1x2048x256 .f32) (sc : Vec F S2048x256 .bf16)
    (x4 x5 : Vec F S512 .f32) (x6 : Vec F S512x256 .f32) (x7 : Vec F S256 .f32) (x8 : Vec F S256x256 .f32)
    (x9 : Vec F S256 .f32) : Vec F S1x512x256 .f32 :=
  k0_pay1 (k0_pay3 (tileRows i x1)) (k0_pay6 (tileRows i x1) x0 sc) (k0_pay7 (tileRows i x1) x0 sc) x4 x5 x6 x7 x8 x9

/-- At a batch's first tile the body leaves the batch's messages in the scratch. -/
theorem scratch_first (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S1x512x256 .f32) (harg12 : arg12.IsWhole) (arg13 : Memref sig .tc .vmem S2048x256 .bf16) (harg13 : arg13.IsWhole) (hc0 : cond0_0 i) (x0 : Vec F S1x512x2048 .f32) (x1 : Vec F S1x2048x256 .f32) (x2 : Vec F S256x256 .f32) (x3 : Vec F S256 .f32) (x4 : Vec F S512 .f32) (x5 : Vec F S512 .f32) (x6 : Vec F S512x256 .f32) (x7 : Vec F S256 .f32) (x8 : Vec F S256x256 .f32) (x9 : Vec F S256 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = k0_pay2 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  rw [View.canon_unit_zero hz2]
  simp only [View.readAt_eq_ld, harg3.read_unread, harg4.read_unread, harg5.read_unread, View.ld_unit_zero (S := S256) hz1, View.ld_unit_zero (S := S256x256) hz2, View.ld_unit_zero (S := S1x2048x256) hz3]

/-- At a batch's first tile the body stores `stored` over the messages it has just computed. -/
theorem out_first (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S1x512x256 .f32) (harg12 : arg12.IsWhole) (arg13 : Memref sig .tc .vmem S2048x256 .bf16) (harg13 : arg13.IsWhole) (hc0 : cond0_0 i) (x0 : Vec F S1x512x2048 .f32) (x1 : Vec F S1x2048x256 .f32) (x2 : Vec F S256x256 .f32) (x3 : Vec F S256 .f32) (x4 : Vec F S512 .f32) (x5 : Vec F S512 .f32) (x6 : Vec F S512x256 .f32) (x7 : Vec F S256 .f32) (x8 : Vec F S256x256 .f32) (x9 : Vec F S256 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = stored i x0 x1 (k0_pay2 x1 x2 x3) x4 x5 x6 x7 x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S512) hz1, View.ld_unit_zero (S := S256) hz1, View.ld_unit_zero (S := S512x256) hz2, View.ld_unit_zero (S := S256x256) hz2, View.ld_unit_zero (S := S2048x256) hz2, View.ld_unit_zero (S := S1x512x2048) hz3, View.ld_unit_zero (S := S1x2048x256) hz3, View.readCov_unit_zero (S := S2048x256) _ hz2]
  rfl

/-- At a later tile of the batch the body stores `stored` over the messages the scratch holds. -/
theorem out_later (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S1x512x256 .f32) (harg12 : arg12.IsWhole) (arg13 : Memref sig .tc .vmem S2048x256 .bf16) (harg13 : arg13.IsWhole) (hc0 : ¬cond0_0 i) (x0 : Vec F S1x512x2048 .f32) (x1 : Vec F S1x2048x256 .f32) (x2 : Vec F S256x256 .f32) (x3 : Vec F S256 .f32) (x4 : Vec F S512 .f32) (x5 : Vec F S512 .f32) (x6 : Vec F S512x256 .f32) (x7 : Vec F S256 .f32) (x8 : Vec F S256x256 .f32) (x9 : Vec F S256 .f32) (xs0 : Vec F S2048x256 .bf16) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = stored i x0 x1 xs0 x4 x5 x6 x7 x8 x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S512) hz1, View.ld_unit_zero (S := S256) hz1, View.ld_unit_zero (S := S512x256) hz2, View.ld_unit_zero (S := S256x256) hz2, View.ld_unit_zero (S := S2048x256) hz2, View.ld_unit_zero (S := S1x512x2048) hz3, View.ld_unit_zero (S := S1x2048x256) hz3, harg13.read_unread]
  rfl

end Cert.KernelIdeal.Pieces

end
-- ==== Proof.LibSoftmaxAgg.lean ====
import Idealize.ShloMosaic.PureOps.Ideal
import Mathlib.Algebra.BigOperators.Ring.Finset
import Mathlib.Analysis.SpecialFunctions.Exp

/-!
# A softmax-weighted sum, normalised before or after the sum

General facts over the extended reals, for a finite row of real logits `e` and real values `m`:

* a finite sum of coerced reals is the coerced sum; the fold of `max` from `⊥` over a non-empty row of reals is a real;
* with `p j = exp (e j − M)` for the row maximum `M` and `Z = ∑ p`, the two arrangements
  `(∑ⱼ p j · m j) / Z` (normalise the aggregate once) and `∑ⱼ (p j / Z) · m j` (normalise each weight)
  are the same extended real: every `p j` is a positive real, `Z` a positive real, so the division is a
  product with a real reciprocal and distributes over the finite sum.
-/

noncomputable section

namespace Cert.SoftmaxAgg

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is a coerced real. -/
theorem max_coe (x y : ℝ) : max (x : EReal) (y : EReal) = ((max x y : ℝ) : EReal) :=
  (Monotone.map_max (fun _ _ h => EReal.coe_le_coe_iff.mpr h)).symm

/-- The fold of `max` from `⊥` over a row of reals is `⊥` (an empty row) or a real. -/
theorem fold_max_bot_or_coe {ι : Type*} [DecidableEq ι] (f : ι → ℝ) (s : Finset ι) :
    s.fold max (⊥ : EReal) (fun i => (f i : EReal)) = ⊥ ∨ ∃ r : ℝ, s.fold max (⊥ : EReal) (fun i => (f i : EReal)) = r := by
  induction s using Finset.induction_on with
  | empty => exact Or.inl Finset.fold_empty
  | insert a s ha ih =>
    refine Or.inr ?_
    rw [Finset.fold_insert ha]
    rcases ih with h | ⟨r, h⟩
    · exact ⟨f a, by rw [h]; exact max_bot_right _⟩
    · exact ⟨max (f a) r, by rw [h]; exact max_coe _ _⟩

/-- Over a non-empty row of reals the fold of `max` from `⊥` is a real. -/
theorem fold_max_coe {n : ℕ} (hn : 0 < n) (f : Fin n → ℝ) :
    ∃ r : ℝ, (Finset.univ : Finset (Fin n)).fold max (⊥ : EReal) (fun i => (f i : EReal)) = r := by
  have hins : (Finset.univ : Finset (Fin n)) = insert ⟨0, hn⟩ (Finset.univ.erase ⟨0, hn⟩) :=
    (Finset.insert_erase (Finset.mem_univ _)).symm
  rw [hins, Finset.fold_insert (Finset.notMem_erase _ _)]
  rcases fold_max_bot_or_coe f (Finset.univ.erase ⟨0, hn⟩) with h | ⟨r, h⟩
  · exact ⟨f ⟨0, hn⟩, by rw [h]; exact max_bot_right _⟩
  · exact ⟨max (f ⟨0, hn⟩) r, by rw [h]; exact max_coe _ _⟩

/-- Dividing a finite sum of products of reals by a non-zero real, or dividing each left factor first: one value. -/
theorem div_sum_mul {ι : Type*} (s : Finset ι) (p m : ι → ℝ) (d : ℝ) (hd : d ≠ 0) :
    Ideal.div (∑ j ∈ s, (p j : EReal) * (m j : EReal)) (d : EReal)
      = ∑ j ∈ s, Ideal.div (p j : EReal) (d : EReal) * (m j : EReal) := by
  have hL : (∑ j ∈ s, (p j : EReal) * (m j : EReal)) = ((∑ j ∈ s, p j * m j : ℝ) : EReal) := by
    rw [coe_sum]; exact Finset.sum_congr rfl fun j _ => (EReal.coe_mul _ _).symm
  have hR : ∀ j, Ideal.div (p j : EReal) (d : EReal) * (m j : EReal) = ((p j * (1 / d) * m j : ℝ) : EReal) := fun j => by
    rw [Ideal.div_coe hd, ← EReal.coe_mul, ← EReal.coe_mul]
  rw [hL, Ideal.div_coe hd, ← EReal.coe_mul, Finset.sum_congr rfl (fun j _ => hR j), ← coe_sum]
  refine congrArg _ ?_
  rw [Finset.sum_mul]
  exact Finset.sum_congr rfl fun j _ => by ring

/-- THE LAW. For a non-empty row of real logits `e` with maximum `M` (the fold of `max` from `⊥`), weights
    `p j = exp (e j − M)` and real values `m`: normalising the weighted sum by `Z = ∑ p` once, or each weight
    before the sum, gives the same extended real. -/
theorem normalize_after_eq_before {n : ℕ} (hn : 0 < n) (e m : Fin n → EReal)
    (he : ∀ j, ∃ r : ℝ, e j = r) (hm : ∀ j, ∃ r : ℝ, m j = r) :
    Ideal.div (∑ j, Ideal.exp (e j - Finset.univ.fold max (⊥ : EReal) e) * m j)
        (∑ j, Ideal.exp (e j - Finset.univ.fold max (⊥ : EReal) e))
      = ∑ j, Ideal.div (Ideal.exp (e j - Finset.univ.fold max (⊥ : EReal) e))
          (∑ j, Ideal.exp (e j - Finset.univ.fold max (⊥ : EReal) e)) * m j := by
  choose er her using he
  choose mr hmr using hm
  obtain rfl : e = fun j => (er j : EReal) := funext her
  obtain rfl : m = fun j => (mr j : EReal) := funext hmr
  obtain ⟨M, hM⟩ := fold_max_coe hn er
  rw [hM]
  have hp : ∀ j, Ideal.exp ((er j : EReal) - (M : EReal)) = ((Real.exp (er j - M) : ℝ) : EReal) := fun j => by
    rw [← EReal.coe_sub]; rfl
  simp only [hp]
  have hZ : (∑ j, ((Real.exp (er j - M) : ℝ) : EReal)) = ((∑ j, Real.exp (er j - M) : ℝ) : EReal) := (coe_sum _ _).symm
  rw [hZ]
  have hpos : (∑ j : Fin n, Real.exp (er j - M)) ≠ 0 :=
    ne_of_gt (Finset.sum_pos (fun j _ => Real.exp_pos _) ⟨⟨0, hn⟩, Finset.mem_univ _⟩)
  exact div_sum_mul Finset.univ (fun j => Real.exp (er j - M)) mr _ hpos

end Cert.SoftmaxAgg

end
-- ==== Proof.Spec.lean ====
import proofs.«127817_j23845658427999_2_alg».proof.Proof.LibSoftmaxAgg

/-!
# One row of the message-passing layer

For one node (one row), from its logit row `e` over the 2048 neighbours, the neighbours' messages `msg`, its own
feature row `v` and the layer's parameters:

* a message row is `v · W + b`;
* the aggregate is the softmax-weighted sum of the messages, `p j = exp (e j − max e)`, `Z = ∑ p`, in two
  arrangements — `aggAfter`: `(∑ⱼ p j · msg j) / Z`; `aggBefore`: `∑ⱼ (p j / Z) · msg j` — equal on real rows;
* the rest of the layer (`rowOut`): concatenate `v` and the aggregate to 512 lanes, normalise (mean and variance over
  the 512 lanes, `rsqrt (var + ε)`, scale and shift), a ReLU layer 512 → 256, a linear layer 256 → 256, and the residual.
-/

noncomputable section

namespace Cert.GnnRow

open Idealize.ShloMosaic

/-- The literals, as the patterns both programs print. -/
abbrev negInf : EReal := Ideal.ofBits .f32 0xFF800000#32
abbrev lanes : EReal := Ideal.ofBits .f32 0x44000000#32
abbrev eps : EReal := Ideal.ofBits .f32 0x3727C5AC#32
abbrev zero : EReal := Ideal.ofBits .f32 0x00000000#32

/-- The `−∞` pattern denotes the bottom of the extended reals. -/
theorem negInf_eq : negInf = ⊥ := by
  simp [negInf, Ideal.ofBits, Ideal.ieee]

/-- A message row: `v · W + b`. -/
def msgRow (v : Fin 256 → EReal) (W : Fin 256 → Fin 256 → EReal) (b : Fin 256 → EReal) (d : Fin 256) : EReal :=
  (∑ k, v k * W k d) + b d

/-- The row maximum, as a fold from the `−∞` pattern. -/
def rowMax (e : Fin 2048 → EReal) : EReal := Finset.univ.fold max negInf e

/-- The unnormalised softmax weight. -/
def wt (e : Fin 2048 → EReal) (j : Fin 2048) : EReal := Ideal.exp (e j - rowMax e)

/-- The aggregate, normalised after the weighted sum. -/
def aggAfter (e : Fin 2048 → EReal) (msg : Fin 2048 → Fin 256 → EReal) (d : Fin 256) : EReal :=
  Ideal.div (∑ j, wt e j * msg j d) (∑ j, wt e j)

/-- The aggregate, each weight normalised before the sum. -/
def aggBefore (e : Fin 2048 → EReal) (msg : Fin 2048 → Fin 256 → EReal) (d : Fin 256) : EReal :=
  ∑ j, Ideal.div (wt e j) (∑ j, wt e j) * msg j d

/-- `msgRow` of equal arguments. -/
theorem msgRow_congr {v v' : Fin 256 → EReal} {W W' : Fin 256 → Fin 256 → EReal} {b b' : Fin 256 → EReal}
    (hv : v = v') (hW : W = W') (hb : b = b') (d : Fin 256) : msgRow v W b d = msgRow v' W' b' d := by
  subst hv hW hb; rfl

/-- On a real logit row and real messages the two arrangements agree. -/
theorem aggAfter_eq_aggBefore (e : Fin 2048 → EReal) (msg : Fin 2048 → Fin 256 → EReal)
    (he : ∀ j, ∃ r : ℝ, e j = r) (hm : ∀ j d, ∃ r : ℝ, msg j d = r) : aggAfter e msg = aggBefore e msg := by
  funext d
  unfold aggAfter aggBefore wt rowMax
  rw [negInf_eq]
  exact Cert.SoftmaxAgg.normalize_after_eq_before (by decide) e (fun j => msg j d) he (fun j => hm j d)

/-- A message row of real features, weights and bias is real. -/
theorem msgRow_real (v : Fin 256 → EReal) (W : Fin 256 → Fin 256 → EReal) (b : Fin 256 → EReal)
    (hv : ∀ k, ∃ r : ℝ, v k = r) (hW : ∀ k d, ∃ r : ℝ, W k d = r) (hb : ∀ d, ∃ r : ℝ, b d = r) (d : Fin 256) :
    ∃ r : ℝ, msgRow v W b d = r := by
  choose vr hvr using hv
  choose Wr hWr using hW
  choose br hbr using hb
  refine ⟨(∑ k, vr k * Wr k d) + br d, ?_⟩
  unfold msgRow
  rw [EReal.coe_add, Cert.SoftmaxAgg.coe_sum, hbr]
  exact congrArg (· + (br d : EReal)) (Finset.sum_congr rfl fun k _ => by rw [hvr, hWr, EReal.coe_mul])

/-- The 512 lanes the normalisation sees: the node's features, then its aggregate. -/
def lanesOf (v agg : Fin 256 → EReal) (c : Fin 512) : EReal :=
  if h : c.val < 256 then v ⟨c.val, h⟩ else agg ⟨c.val - 256, by have := c.isLt; omega⟩

/-- The mean over the 512 lanes. -/
def mean (x : Fin 512 → EReal) : EReal := Ideal.div (∑ c, x c) lanes

/-- `rsqrt (variance + ε)`, the variance about the mean over the 512 lanes. -/
def invStd (x : Fin 512 → EReal) : EReal :=
  Ideal.rsqrt (Ideal.div (∑ c, (x c - mean x) * (x c - mean x)) lanes + eps)

/-- The normalised, scaled and shifted lanes. -/
def normed (x : Fin 512 → EReal) (g lb : Fin 512 → EReal) (c : Fin 512) : EReal :=
  (x c - mean x) * invStd x * g c + lb c

/-- The hidden layer: a linear map 512 → 256 and a ReLU. -/
def hidden (h : Fin 512 → EReal) (W1 : Fin 512 → Fin 256 → EReal) (b1 : Fin 256 → EReal) (k : Fin 256) : EReal :=
  max ((∑ c, h c * W1 c k) + b1 k) zero

/-- The node's new feature row from its features `v` and its aggregate `agg`. -/
def rowOut (v agg : Fin 256 → EReal) (g lb : Fin 512 → EReal) (W1 : Fin 512 → Fin 256 → EReal) (b1 : Fin 256 → EReal)
    (W2 : Fin 256 → Fin 256 → EReal) (b2 : Fin 256 → EReal) (d : Fin 256) : EReal :=
  v d + ((∑ k, hidden (normed (lanesOf v agg) g lb) W1 b1 k * W2 k d) + b2 d)

/-- `rowOut` of equal arguments. -/
theorem rowOut_congr {v v' agg agg' : Fin 256 → EReal} {g g' lb lb' : Fin 512 → EReal} {W1 W1' : Fin 512 → Fin 256 → EReal}
    {b1 b1' : Fin 256 → EReal} {W2 W2' : Fin 256 → Fin 256 → EReal} {b2 b2' : Fin 256 → EReal}
    (hv : v = v') (hagg : agg = agg') (hg : g = g') (hlb : lb = lb') (hW1 : W1 = W1') (hb1 : b1 = b1') (hW2 : W2 = W2')
    (hb2 : b2 = b2') (d : Fin 256) : rowOut v agg g lb W1 b1 W2 b2 d = rowOut v' agg' g' lb' W1' b1' W2' b2' d := by
  subst hv hagg hg hlb hW1 hb1 hW2 hb2; rfl

end Cert.GnnRow

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.LibRowOps.lean ====
import Idealize.ShloMosaic.Lib.Pipeline.Value
import Idealize.ShloMosaic.Lib.ValueIdx
import Idealize.ShloMosaic.Lib.ValueLayout
import Idealize.ShloMosaic.PureOps.Ideal.Laws

/-!
# Matrix products, row sums and keep-dims broadcasts, read at an index

General facts at the ideal float instance, over arrays `[a, b]` of any extents, in the style of the
library's `shapeCast_a_1a_apply` and `broadcastTo_1b_ab_apply`:

* a plain matrix product `[a, k] × [k, b]` — a kernel's `tpu.matmul` into a zero accumulator, the
  host's `dot_general` — read at `(p, q)` is `∑ j, L (p, j) · R (j, q)`;
* a sum over the last axis of an `[a, b]` array into `[a]` — a kernel's `multi_reduction <add>`, the host's
  `reduce add` with its initial value — read at `p` is the sum over `k < b` of the array at `(p, k)`;
* the host's `broadcast_in_dim` in the four keep-dims forms `[b] → [1, b]`, `[1, b] → [a, b]`,
  `[a] → [a, 1]`, `[a, 1] → [a, b]`, and of a scalar to any shape, each read at an index.
-/

noncomputable section

namespace Cert.RowOps

open Idealize.ShloMosaic Idealize.ShloMosaic.ValueIdx

variable {α : Type}

/-! ## The plain matrix product -/

theorem plain_lhs0 (a k b : ℕ) (i : (⟨2, ![a, b]⟩ : Shape).Idx) (q : (DotDims.plain a k b).contr.Idx) :
    ((DotDims.plain a k b).lhsIdx i q 0).val = (i 0).val := by
  unfold DotDims.lhsIdx
  rw [dif_neg (show ¬(0 : Fin 2) ∈ (DotDims.plain a k b).lhsBatch from List.not_mem_nil),
    dif_pos (show (0 : Fin 2) ∈ (DotDims.plain a k b).lhsNonContracting from List.mem_singleton.mpr rfl)]
  rfl
theorem plain_lhs1 (a k b : ℕ) (i : (⟨2, ![a, b]⟩ : Shape).Idx) (q : (DotDims.plain a k b).contr.Idx) :
    ((DotDims.plain a k b).lhsIdx i q 1).val = (q ⟨0, (Nat.one_pos : 0 < 1)⟩).val :=
  (DotDims.plain a k b).lhsIdx_val_of_single rfl i q
theorem plain_rhs0 (a k b : ℕ) (i : (⟨2, ![a, b]⟩ : Shape).Idx) (q : (DotDims.plain a k b).contr.Idx) :
    ((DotDims.plain a k b).rhsIdx i q 0).val = (q ⟨0, (Nat.one_pos : 0 < 1)⟩).val :=
  (DotDims.plain a k b).rhsIdx_val_of_single rfl i q
theorem plain_rhs1 (a k b : ℕ) (i : (⟨2, ![a, b]⟩ : Shape).Idx) (q : (DotDims.plain a k b).contr.Idx) :
    ((DotDims.plain a k b).rhsIdx i q 1).val = (i 1).val := by
  unfold DotDims.rhsIdx
  rw [dif_neg (show ¬(1 : Fin 2) ∈ (DotDims.plain a k b).rhsBatch from List.not_mem_nil),
    dif_pos (show (1 : Fin 2) ∈ (DotDims.plain a k b).rhsNonContracting from List.mem_singleton.mpr rfl)]
  rfl

/-- The sum over a plain product's contraction index, re-indexed by `Fin k`. -/
theorem plain_sum (a k b : ℕ) (L : (⟨2, ![a, k]⟩ : Shape).Idx → EReal) (R : (⟨2, ![k, b]⟩ : Shape).Idx → EReal) (p : Fin a) (q : Fin b) :
    (∑ κ : (DotDims.plain a k b).contr.Idx, L ((DotDims.plain a k b).lhsIdx (ix2 p q) κ) * R ((DotDims.plain a k b).rhsIdx (ix2 p q) κ))
      = ∑ j : Fin k, L (ix2 p j) * R (ix2 j q) := by
  rw [← Equiv.sum_comp (contrEquiv1 (DotDims.plain a k b) k rfl rfl).symm]
  refine Finset.sum_congr rfl fun j _ => ?_
  have hk := contrEquiv1_symm_val (DotDims.plain a k b) k rfl rfl j
  have el : (DotDims.plain a k b).lhsIdx (ix2 p q) ((contrEquiv1 (DotDims.plain a k b) k rfl rfl).symm j) = ix2 p j :=
    funext fun c => Fin.ext (by
      match c with
      | ⟨0, _⟩ => exact plain_lhs0 a k b _ _
      | ⟨1, _⟩ => exact (plain_lhs1 a k b _ _).trans hk)
  have er : (DotDims.plain a k b).rhsIdx (ix2 p q) ((contrEquiv1 (DotDims.plain a k b) k rfl rfl).symm j) = ix2 j q :=
    funext fun c => Fin.ext (by
      match c with
      | ⟨0, _⟩ => exact (plain_rhs0 a k b _ _).trans hk
      | ⟨1, _⟩ => exact plain_rhs1 a k b _ _)
  rw [el, er]

/-- A kernel's matrix product into a zero accumulator, at `(p, q)`. -/
theorem matmul_plain_apply {a k b : ℕ} {φ₁ φ₂ : FTy} (L : FVec Ideal ⟨2, ![a, k]⟩ φ₁) (R : FVec Ideal ⟨2, ![k, b]⟩ φ₂)
    (prec : Option ContractPrecision) (p : Fin a) (q : Fin b) :
    FloatOps.matmul (DotDims.plain a k b) prec L R (constant ⟨2, ![a, b]⟩ .f32 0x00000000#32) (ix2 p q)
      = ∑ j : Fin k, L (ix2 p j) * R (ix2 j q) :=
  (Ideal.matmul_constant_zero_apply _ prec L R (ix2 p q)).trans (plain_sum a k b L R p q)

/-- The host's `dot_general` of the same dimension numbers, at `(p, q)`. -/
theorem dotGeneral_plain_apply {a k b : ℕ} {φ₁ φ₂ : FTy} (L : FVec Ideal ⟨2, ![a, k]⟩ φ₁) (R : FVec Ideal ⟨2, ![k, b]⟩ φ₂)
    (prec : Option ContractPrecision) (sched : HostSchedule) (p : Fin a) (q : Fin b) :
    FloatOps.dotGeneral (DotDims.plain a k b) prec sched L R (ix2 p q) = ∑ j : Fin k, L (ix2 p j) * R (ix2 j q) :=
  (Ideal.dotGeneral_apply _ prec sched L R (ix2 p q)).trans (plain_sum a k b L R p q)

/-! ## Row sums -/

/-- A kernel's sum over the last axis, at row `p`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's sum over the last axis, at row `p`: the initial value plus the row's sum. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun d => Fin.ext (by
    match d with
    | ⟨0, _⟩ => rfl
    | ⟨1, _⟩ => rfl))

/-! ## The host's keep-dims broadcasts -/

/-- `[b] → [1, b]` (dims = [1]), at `(u, q)`. -/
theorem bcast_b_1b_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) :=
  broadcastInDim_apply _ h x (ix2 u q) (ix1 q) fun c => by
    match c with
    | ⟨0, _⟩ =>
      show q.val = if b = 1 then 0 else q.val
      split
      · have := q.isLt; omega
      · rfl

/-- `[1, b] → [a, b]` (dims = [0, 1]), at `(p, q)`. -/
theorem bcast_1b_ab_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply _ h x (ix2 p q) (ix2 (0 : Fin 1) q) fun c => by
    match c with
    | ⟨0, _⟩ => show 0 = if (1 : ℕ) = 1 then 0 else p.val; rw [if_pos rfl]
    | ⟨1, _⟩ =>
      show q.val = if b = 1 then 0 else q.val
      split
      · have := q.isLt; omega
      · rfl

/-- `[a] → [a, 1]` (dims = [0]), at `(p, u)`. -/
theorem bcast_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun c => by
    match c with
    | ⟨0, _⟩ =>
      show p.val = if a = 1 then 0 else p.val
      split
      · have := p.isLt; omega
      · rfl

/-- `[a, 1] → [a, b]` (dims = [0, 1]), at `(p, q)`. -/
theorem bcast_a1_ab_apply {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply _ h x (ix2 p q) (ix2 p (0 : Fin 1)) fun c => by
    match c with
    | ⟨0, _⟩ =>
      show p.val = if a = 1 then 0 else p.val
      split
      · have := p.isLt; omega
      · rfl
    | ⟨1, _⟩ => show 0 = if (1 : ℕ) = 1 then 0 else q.val; rw [if_pos rfl]

/-- A scalar broadcast to any shape, at any index. -/
theorem bcast_scalar_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 fun c => c.elim0

end Cert.RowOps

end
-- ==== Proof.KernelRow.lean ====
import proofs.«127817_j23845658427999_2_alg».proof.Proof.Gen.KernelIdeal.Skeleton
import proofs.«127817_j23845658427999_2_alg».proof.Proof.Spec
import proofs.«127817_j23845658427999_2_alg».proof.Proof.LibKeepdims
import proofs.«127817_j23845658427999_2_alg».proof.Proof.LibRowReads
import proofs.«127817_j23845658427999_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

/-!
# The kernel body's values, read row by row

At the ideal instance, each value the kernel body computes on a tile of 512 nodes is read at a row `r` of the tile:
the messages it keeps in scratch are `v · W + b` row by row; the 512 lanes it normalises are the node's features
followed by its aggregate (the unnormalised weights `exp (e − max e)` contracted with the messages, then divided by
the row's weight sum); and what it stores is `rowOut` of those.
-/

noncomputable section

namespace Cert.KernelIdeal.RowValue

open Cert.KernelIdeal Cert.KernelIdeal.Gen Idealize.ShloMosaic Idealize.ShloMosaic.ValueIdx Cert.GnnRow

/-- The messages stored in scratch, at message row `j` and lane `d`. -/
theorem messages_apply (x1 : Vec Ideal S1x2048x256 .f32) (x2 : Vec Ideal S256x256 .f32) (x3 : Vec Ideal S256 .f32)
    (j : Fin 2048) (d : Fin 256) :
    k0_pay2 (F := Ideal) x1 x2 x3 (ix2 j d)
      = msgRow (fun k => x1 (ix3 (0 : Fin 1) j k)) (fun k d => x2 (ix2 k d)) (fun d => x3 (ix1 d)) d := by
  unfold k0_pay2 msgRow
  refine (congrFun (shapeCast_self _ _) (ix2 j d)).trans ?_
  refine congrArg₂ (fun a b : EReal => a + b) ?_ ?_
  · refine (Cert.RowOps.matmul_plain_apply (a := 2048) (k := 256) (b := 256) _ _ none j d).trans ?_
    exact Finset.sum_congr rfl fun k _ => congrArg (· * x2 (ix2 k d)) (shapeCast_1ab_ab_apply x1 _ j k)
  · refine (broadcastTo_1b_ab_apply _ _ j d).trans ?_
    exact shapeCast_a_1a_apply x3 _ 0 d

section Softmax

variable (y : FVec Ideal S512x2048 .f32)
  (hr : S512x2048.Reduces [1] S512) (hφ : FKind.Formats .f32)
  (hmax : (0xFF800000#32 : BitVec 32) = FKind.maximumf.neutral .f32 hφ)
  (hadd : (0x00000000#32 : BitVec 32) = FKind.add.neutral .f32 hφ)
  (hc : S512.ShapeCasts S512x1) (hb : S512x1.Broadcasts S512x2048) (hb' : S512x1.Broadcasts S512x256)

/-- The tile of unnormalised weights `exp (e − max e)`, as the body spells it. -/
def weights : FVec Ideal S512x2048 .f32 :=
  exp (subf y (broadcastTo S512x2048 (shapeCast S512x1 (multiReduction .maximumf [1] S512 y 0xFF800000#32 hr hφ hmax) hc) hb))

/-- Row `r` of the weights tile is the weight row of logit row `r`. -/
theorem weights_apply (r : Fin 512) (j : Fin 2048) :
    weights y hr hφ hmax hc hb (ix2 r j) = wt (fun j => y (ix2 r j)) j := by
  have hM : broadcastTo S512x2048 (shapeCast S512x1 (multiReduction .maximumf [1] S512 y 0xFF800000#32 hr hφ hmax) hc) hb (ix2 r j)
      = rowMax (fun j => y (ix2 r j)) :=
    (Cert.Keepdims.broadcastTo_a1_ab_apply _ hb r j).trans
      ((Cert.Keepdims.shapeCast_a_a1_apply _ hc r 0).trans (Cert.RowReads.rowMax_apply y _ hr hφ hmax r))
  show Ideal.exp (y (ix2 r j) - _) = Ideal.exp (y (ix2 r j) - rowMax _)
  rw [hM]

/-- The keep-dims weight sum of row `r`, broadcast over the 256 lanes. -/
theorem weightSum_apply (w : FVec Ideal S512x2048 .f32) (r : Fin 512) (d : Fin 256) :
    broadcastTo S512x256 (shapeCast S512x1 (multiReduction .add [1] S512 w 0x00000000#32 hr hφ hadd) hc) hb' (ix2 r d)
      = ∑ j : Fin 2048, w (ix2 r j) :=
  (Cert.Keepdims.broadcastTo_a1_ab_apply _ hb' r d).trans
    ((Cert.Keepdims.shapeCast_a_a1_apply _ hc r 0).trans (Cert.RowOps.rowSum_apply w _ hr hφ hadd r))

end Softmax

/-- The aggregate tile at row `r`, lane `d`: the weights contracted with the messages, over the row's weight sum. -/
theorem aggregate_apply (y : FVec Ideal S512x2048 .f32) (sc : FVec Ideal S2048x256 .bf16)
    (hr : S512x2048.Reduces [1] S512) (hφ : FKind.Formats .f32)
    (hmax : (0xFF800000#32 : BitVec 32) = FKind.maximumf.neutral .f32 hφ)
    (hadd : (0x00000000#32 : BitVec 32) = FKind.add.neutral .f32 hφ)
    (hc : S512.ShapeCasts S512x1) (hb : S512x1.Broadcasts S512x2048) (hb' : S512x1.Broadcasts S512x256)
    (hlt : FTy.bits .bf16 < FTy.bits .f32) (r : Fin 512) (d : Fin 256) :
    divf (matmul dot_S512x2048_S2048x256_S512x256_1_0_0_1_n_n none (truncf .bf16 (weights y hr hφ hmax hc hb) hlt) sc
          (constant S512x256 .f32 0x00000000#32))
        (broadcastTo S512x256 (shapeCast S512x1 (multiReduction .add [1] S512 (weights y hr hφ hmax hc hb) 0x00000000#32 hr hφ hadd) hc) hb')
        (ix2 r d)
      = aggAfter (fun j => y (ix2 r j)) (fun j d => sc (ix2 j d)) d := by
  unfold aggAfter
  show Ideal.div _ _ = _
  refine congrArg₂ Ideal.div ?_ ?_
  · refine (Cert.RowOps.matmul_plain_apply (a := 512) (k := 2048) (b := 256) _ _ none r d).trans ?_
    exact Finset.sum_congr rfl fun j _ => congrArg (fun t : EReal => t * sc (ix2 j d)) (weights_apply y hr hφ hmax hc hb r j)
  · refine (weightSum_apply hr hφ hadd hc hb' _ r d).trans ?_
    exact Finset.sum_congr rfl fun j _ => weights_apply y hr hφ hmax hc hb r j

/-- The 512 lanes the body normalises, at row `r`: the node's features, then its aggregate. -/
theorem lanes_apply (v6 : Vec Ideal S1x512x256 .f32) (x0 : Vec Ideal S1x512x2048 .f32) (sc : Vec Ideal S2048x256 .bf16)
    (r : Fin 512) (c : Fin 512) :
    k0_pay4 (F := Ideal) v6 x0 sc (ix2 r c)
      = lanesOf (fun k => v6 (ix3 (0 : Fin 1) r k))
          (aggAfter (fun j => x0 (ix3 (0 : Fin 1) r j)) (fun j d => sc (ix2 j d))) c := by
  unfold k0_pay4 k0_pay3 lanesOf
  by_cases hc : c.val < 256
  · rw [dif_pos hc]
    refine (concatenate_pair_apply_left (t := S512x512) (s₁ := S512x256) (s₂ := S512x256) 1 _ _ _ (ix2 r c) rfl (ix2 r (⟨c.val, hc⟩ : Fin 256))
      (fun b => by match b with | ⟨0, _⟩ => rfl | ⟨1, _⟩ => rfl)).trans ?_
    exact shapeCast_1ab_ab_apply v6 _ r (⟨c.val, hc⟩ : Fin 256)
  · rw [dif_neg hc]
    have hc' : c.val - 256 < 256 := by have := c.isLt; omega
    refine (concatenate_pair_apply_right (t := S512x512) (s₁ := S512x256) (s₂ := S512x256) 1 _ _ _ (ix2 r c) rfl rfl (ix2 r (⟨c.val - 256, hc'⟩ : Fin 256))
      (fun b hb => by match b with | ⟨0, _⟩ => rfl | ⟨1, _⟩ => exact absurd rfl hb)
      (by show (c.val - 256) + 256 = c.val; omega)).trans ?_
    refine (aggregate_apply (shapeCast S512x2048 x0 _) sc _ _ _ _ _ _ _ _ r (⟨c.val - 256, hc'⟩ : Fin 256)).trans ?_
    exact congrArg (fun e => aggAfter e (fun j d => sc (ix2 j d)) ⟨c.val - 256, hc'⟩)
      (funext fun j => shapeCast_1ab_ab_apply x0 _ r j)

/-- The 512 lanes of row `r`, as a row function. -/
abbrev rowLanes (v6 : Vec Ideal S1x512x256 .f32) (x0 : Vec Ideal S1x512x2048 .f32) (sc : Vec Ideal S2048x256 .bf16)
    (r : Fin 512) : Fin 512 → EReal :=
  lanesOf (fun k => v6 (ix3 (0 : Fin 1) r k)) (aggAfter (fun j => x0 (ix3 (0 : Fin 1) r j)) (fun j d => sc (ix2 j d)))

/-- A keep-dims lane mean of a `[512, 512]` tile, at row `r`. -/
theorem mean_apply (X : FVec Ideal S512x512 .f32) (hr : S512x512.Reduces [1] S512) (hφ : FKind.Formats .f32)
    (hadd : (0x00000000#32 : BitVec 32) = FKind.add.neutral .f32 hφ) (hc : S512.ShapeCasts S512x1) (r : Fin 512) (u : Fin 1) :
    divf (shapeCast S512x1 (multiReduction .add [1] S512 X 0x00000000#32 hr hφ hadd) hc)
        (broadcast S512x1 (Scalar.ofBits .f32 0x44000000#32)) (ix2 r u)
      = mean (fun c => X (ix2 r c)) := by
  unfold mean
  show Ideal.div _ _ = _
  refine congrArg₂ Ideal.div ?_ rfl
  exact (Cert.Keepdims.shapeCast_a_a1_apply _ hc r u).trans (Cert.RowOps.rowSum_apply X _ hr hφ hadd r)

/-- The body's keep-dims mean, at row `r`. -/
theorem pay5_apply (v6 : Vec Ideal S1x512x256 .f32) (x0 : Vec Ideal S1x512x2048 .f32) (sc : Vec Ideal S2048x256 .bf16)
    (r : Fin 512) (u : Fin 1) : k0_pay5 (F := Ideal) v6 x0 sc (ix2 r u) = mean (rowLanes v6 x0 sc r) := by
  unfold k0_pay5
  refine (mean_apply (k0_pay4 v6 x0 sc) _ _ _ _ r u).trans ?_
  exact congrArg mean (funext fun c => lanes_apply v6 x0 sc r c)

/-- The centred lanes, at row `r`, lane `c`. -/
theorem pay6_apply (v6 : Vec Ideal S1x512x256 .f32) (x0 : Vec Ideal S1x512x2048 .f32) (sc : Vec Ideal S2048x256 .bf16)
    (r c : Fin 512) :
    k0_pay6 (F := Ideal) v6 x0 sc (ix2 r c) = rowLanes v6 x0 sc r c - mean (rowLanes v6 x0 sc r) := by
  unfold k0_pay6
  refine congrArg₂ (fun a b : EReal => a - b) (lanes_apply v6 x0 sc r c) ?_
  exact (Cert.Keepdims.broadcastTo_a1_ab_apply _ _ r c).trans (pay5_apply v6 x0 sc r 0)

/-- `rsqrt (variance + ε)` of row `r`. -/
theorem pay7_apply (v6 : Vec Ideal S1x512x256 .f32) (x0 : Vec Ideal S1x512x2048 .f32) (sc : Vec Ideal S2048x256 .bf16)
    (r : Fin 512) (u : Fin 1) : k0_pay7 (F := Ideal) v6 x0 sc (ix2 r u) = invStd (rowLanes v6 x0 sc r) := by
  unfold k0_pay7 invStd
  refine congrArg Ideal.rsqrt (congrArg₂ (fun a b : EReal => a + b) (congrArg₂ Ideal.div ?_ rfl) rfl)
  refine (Cert.Keepdims.shapeCast_a_a1_apply _ _ r u).trans ((Cert.RowOps.rowSum_apply _ _ _ _ _ r).trans ?_)
  refine Finset.sum_congr rfl fun c _ => ?_
  have h := pay6_apply v6 x0 sc r c
  exact congrArg₂ (fun a b : EReal => a * b) h h

/-- What the body stores, at row `r` and lane `d`, from the centred lanes `v35` and `rsqrt (var + ε)` `v38`. -/
theorem store_apply (v7 : FVec Ideal S512x256 .f32) (v35 : FVec Ideal S512x512 .f32) (v38 : FVec Ideal S512x1 .f32)
    (x4 x5 : Vec Ideal S512 .f32) (x6 : Vec Ideal S512x256 .f32) (x7 : Vec Ideal S256 .f32)
    (x8 : Vec Ideal S256x256 .f32) (x9 : Vec Ideal S256 .f32)
    (u : Fin 1) (r : Fin 512) (d : Fin 256) (xs : Fin 512 → EReal) (mu istd : EReal)
    (h35 : ∀ c, v35 (ix2 r c) = xs c - mu) (h38 : v38 (ix2 r (0 : Fin 1)) = istd) :
    k0_pay1 (F := Ideal) v7 v35 v38 x4 x5 x6 x7 x8 x9 (ix3 u r d)
      = v7 (ix2 r d) + ((∑ k : Fin 256, max ((∑ c : Fin 512, ((xs c - mu) * istd * x4 (ix1 c) + x5 (ix1 c)) * x6 (ix2 c k))
            + x7 (ix1 k)) zero * x8 (ix2 k d)) + x9 (ix1 d)) := by
  unfold k0_pay1
  refine (shapeCast_ab_1ab_apply _ _ u r d).trans ?_
  refine congrArg₂ (fun a b : EReal => a + b) rfl (congrArg₂ (fun a b : EReal => a + b) ?_ ?_)
  · refine (Cert.RowOps.matmul_plain_apply (a := 512) (k := 256) (b := 256) _ _ none r d).trans ?_
    refine Finset.sum_congr rfl fun k _ => congrArg (fun t : EReal => t * x8 (ix2 k d)) ?_
    refine congrArg₂ (fun a b : EReal => max a b) (congrArg₂ (fun a b : EReal => a + b) ?_ ?_) rfl
    · refine (Cert.RowOps.matmul_plain_apply (a := 512) (k := 512) (b := 256) _ _ none r k).trans ?_
      refine Finset.sum_congr rfl fun c _ => congrArg (fun t : EReal => t * x6 (ix2 c k)) ?_
      refine congrArg₂ (fun a b : EReal => a + b)
        (congrArg₂ (fun a b : EReal => a * b) (congrArg₂ (fun a b : EReal => a * b) (h35 c) ?_) ?_) ?_
      · exact (Cert.Keepdims.broadcastTo_a1_ab_apply v38 _ r c).trans h38
      · exact (broadcastTo_1b_ab_apply _ _ r c).trans (shapeCast_a_1a_apply x4 _ 0 c)
      · exact (broadcastTo_1b_ab_apply _ _ r c).trans (shapeCast_a_1a_apply x5 _ 0 c)
    · exact (broadcastTo_1b_ab_apply _ _ r k).trans (shapeCast_a_1a_apply x7 _ 0 k)
  · exact (broadcastTo_1b_ab_apply _ _ r d).trans (shapeCast_a_1a_apply x9 _ 0 d)

/-- THE BODY'S VALUE: from the feature rows `v6` of the tile's nodes, their logit rows `x0`, the messages `sc` and the
    parameters, the body stores `rowOut` of row `r`. -/
theorem body_apply (v6 : Vec Ideal S1x512x256 .f32) (x0 : Vec Ideal S1x512x2048 .f32) (sc : Vec Ideal S2048x256 .bf16)
    (x4 x5 : Vec Ideal S512 .f32) (x6 : Vec Ideal S512x256 .f32) (x7 : Vec Ideal S256 .f32)
    (x8 : Vec Ideal S256x256 .f32) (x9 : Vec Ideal S256 .f32) (u : Fin 1) (r : Fin 512) (d : Fin 256) :
    k0_pay1 (F := Ideal) (k0_pay3 v6) (k0_pay6 v6 x0 sc) (k0_pay7 v6 x0 sc) x4 x5 x6 x7 x8 x9 (ix3 u r d)
      = rowOut (fun k => v6 (ix3 (0 : Fin 1) r k))
          (aggAfter (fun j => x0 (ix3 (0 : Fin 1) r j)) (fun j d => sc (ix2 j d)))
          (fun c => x4 (ix1 c)) (fun c => x5 (ix1 c)) (fun c k => x6 (ix2 c k)) (fun k => x7 (ix1 k))
          (fun k d => x8 (ix2 k d)) (fun d => x9 (ix1 d)) d := by
  refine (store_apply (k0_pay3 v6) (k0_pay6 v6 x0 sc) (k0_pay7 v6 x0 sc) x4 x5 x6 x7 x8 x9 u r d
    (rowLanes v6 x0 sc r) (mean (rowLanes v6 x0 sc r)) (invStd (rowLanes v6 x0 sc r))
    (fun c => pay6_apply v6 x0 sc r c) (pay7_apply v6 x0 sc r 0)).trans ?_
  unfold rowOut Cert.GnnRow.hidden normed
  refine congrArg₂ (fun a b : EReal => a + b) ?_ rfl
  unfold k0_pay3
  exact shapeCast_1ab_ab_apply v6 _ r d

end Cert.KernelIdeal.RowValue

end
-- ==== Proof.Arrays.lean ====
import proofs.«127817_j23845658427999_2_alg».proof.Proof.Spec
import Idealize.ShloMosaic.Lib.ValueIdx

/-!
# The layer on whole arrays

The layer's result array `[8, 2048, 256]` from the ten argument arrays, index by index: node `n` of batch `b` gets
`rowOut` of its feature row and the aggregate of its logit row against the batch's messages, the aggregate in either
arrangement. On real features, logits, message weights and message bias the two arrangements give one array.
-/

noncomputable section

namespace Cert.GnnRow

open Idealize.ShloMosaic Idealize.ShloMosaic.ValueIdx

variable (agg : (Fin 2048 → EReal) → (Fin 2048 → Fin 256 → EReal) → Fin 256 → EReal)
  (A0 : (⟨3, ![8, 2048, 256]⟩ : Shape).Idx → EReal) (A1 : (⟨3, ![8, 2048, 2048]⟩ : Shape).Idx → EReal)
  (A2 : (⟨2, ![256, 256]⟩ : Shape).Idx → EReal) (A3 : (⟨1, ![256]⟩ : Shape).Idx → EReal)
  (A4 A5 : (⟨1, ![512]⟩ : Shape).Idx → EReal) (A6 : (⟨2, ![512, 256]⟩ : Shape).Idx → EReal)
  (A7 : (⟨1, ![256]⟩ : Shape).Idx → EReal) (A8 : (⟨2, ![256, 256]⟩ : Shape).Idx → EReal)
  (A9 : (⟨1, ![256]⟩ : Shape).Idx → EReal)

/-- The messages of batch `b`. -/
def batchMessages (b : Fin 8) (j : Fin 2048) (d : Fin 256) : EReal :=
  msgRow (fun k => A0 (ix3 b j k)) (fun k d => A2 (ix2 k d)) (fun d => A3 (ix1 d)) d

/-- The result at node `n` of batch `b`, lane `d`. -/
def nodeOut (b : Fin 8) (n : Fin 2048) (d : Fin 256) : EReal :=
  rowOut (fun k => A0 (ix3 b n k)) (agg (fun j => A1 (ix3 b n j)) (batchMessages A0 A2 A3 b))
    (fun c => A4 (ix1 c)) (fun c => A5 (ix1 c)) (fun c k => A6 (ix2 c k)) (fun k => A7 (ix1 k))
    (fun k d => A8 (ix2 k d)) (fun d => A9 (ix1 d)) d

/-- The result array. -/
def layerOut : (⟨3, ![8, 2048, 256]⟩ : Shape).Idx → EReal :=
  fun i => nodeOut agg A0 A1 A2 A3 A4 A5 A6 A7 A8 A9 (i 0) (i 1) (i 2)

theorem layerOut_ix3 (b : Fin 8) (n : Fin 2048) (d : Fin 256) :
    layerOut agg A0 A1 A2 A3 A4 A5 A6 A7 A8 A9 (ix3 b n d) = nodeOut agg A0 A1 A2 A3 A4 A5 A6 A7 A8 A9 b n d := rfl

/-- On real features, logits, message weights and message bias: normalising the aggregate after the contraction or
    each weight before it gives the same result array. -/
theorem layerOut_after_eq_before (h0 : ∀ i, ∃ r : ℝ, A0 i = r) (h1 : ∀ i, ∃ r : ℝ, A1 i = r)
    (h2 : ∀ i, ∃ r : ℝ, A2 i = r) (h3 : ∀ i, ∃ r : ℝ, A3 i = r) :
    layerOut aggAfter A0 A1 A2 A3 A4 A5 A6 A7 A8 A9 = layerOut aggBefore A0 A1 A2 A3 A4 A5 A6 A7 A8 A9 := by
  funext i
  have e : aggAfter (fun j => A1 (ix3 (i 0) (i 1) j)) (batchMessages A0 A2 A3 (i 0))
      = aggBefore (fun j => A1 (ix3 (i 0) (i 1) j)) (batchMessages A0 A2 A3 (i 0)) :=
    aggAfter_eq_aggBefore _ _ (fun j => h1 _)
      (fun j d => msgRow_real _ _ _ (fun k => h0 _) (fun k d => h2 _) (fun d => h3 _) d)
  unfold layerOut nodeOut
  exact congrArg (fun ag => rowOut (fun k => A0 (ix3 (i 0) (i 1) k)) ag (fun c => A4 (ix1 c)) (fun c => A5 (ix1 c))
    (fun c k => A6 (ix2 c k)) (fun k => A7 (ix1 k)) (fun k d => A8 (ix2 k d)) (fun d => A9 (ix1 d)) (i 2)) e

end Cert.GnnRow

end
-- ==== Proof.KernelBlocks.lean ====
import proofs.«127817_j23845658427999_2_alg».proof.Proof.KernelPieces
import proofs.«127817_j23845658427999_2_alg».proof.Proof.KernelRow
import proofs.«127817_j23845658427999_2_alg».proof.Proof.Arrays

/-!
# The kernel's result array

At the ideal instance. Grid point `t` works on batch `t / 4` and tile `t % 4`: its logit block is rows
`512 · (t % 4) …` of the batch's logits, its feature slab the batch's whole feature matrix, its parameters the whole
parameter arrays. The scratch holds the batch's messages after every point of the batch (by induction on the point: the
batch's first point computes them, the later points keep them). So what point `t` writes back is block `t` of
`layerOut aggAfter` of the argument arrays, the blocks cover the result array, and the run ends with the result array at
that function of the arguments.
-/

noncomputable section

namespace Cert.KernelIdeal.Blocks

open Cert.KernelIdeal Cert.KernelIdeal.Gen Cert.KernelIdeal.Value Cert.KernelIdeal.Pieces Cert.KernelIdeal.RowValue Cert.GnnRow
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## Where each window's block sits at point `t` (decided over the 32 points): batch `t / 4`, tile `t % 4` -/

theorem idx0 : ∀ t : Fin cfg0.N, win0_0.index t (0 : Fin 3) = t.val / 4 ∧ win0_0.index t (1 : Fin 3) = t.val % 4
    ∧ win0_0.index t (2 : Fin 3) = 0 := (by decide +kernel : ∀ t : Fin grid0.N, _)
theorem idx1 : ∀ t : Fin cfg0.N, win0_1.index t (0 : Fin 3) = t.val / 4 ∧ win0_1.index t (1 : Fin 3) = 0
    ∧ win0_1.index t (2 : Fin 3) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 1) = 0 := (by decide +kernel : ∀ t : Fin grid0.N, _)
theorem idx5 : ∀ t : Fin cfg0.N, win0_5.index t (0 : Fin 1) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 1) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 1) = 0 := (by decide +kernel : ∀ t : Fin grid0.N, _)
theorem idx10 : ∀ t : Fin cfg0.N, win0_10.index t (0 : Fin 3) = t.val / 4 ∧ win0_10.index t (1 : Fin 3) = t.val % 4
    ∧ win0_10.index t (2 : Fin 3) = 0 := (by decide +kernel : ∀ t : Fin grid0.N, _)
theorem tile_coord : ∀ t : Fin cfg0.N, (grid0.coords t 1).val = t.val % 4 := (by decide +kernel : ∀ t : Fin grid0.N, _)

/-! ## The input blocks, read off the argument arrays -/

/-- The logit block: rows `512 · (t % 4) + r` of batch `t / 4`. -/
theorem logits_blk (c : Dev nD) (t : Fin cfg0.N) (r : Fin 512) (j : Fin 2048) (b : Fin 8) (n : Fin 2048)
    (hb : b.val = t.val / 4) (hn : n.val = 512 * (t.val % 4) + r.val) :
    (iblk m c 0 t : Vec Ideal S1x512x2048 .f32) (ix3 (0 : Fin 1) r j) = m ((c : Thread nD τ).loc main_arg1) (ix3 b n j) := by
  obtain ⟨e0, e1, e2⟩ := idx0 t
  unfold iblk
  rw [View.read_apply]
  show V m c main_arg1 _ = m (c.tc.loc main_arg1) _
  unfold V
  congr 1
  funext a
  apply Fin.ext
  match a with
  | ⟨0, _⟩ => show win0_0.index t 0 * 1 + 1 * 0 = b.val; rw [e0]; omega
  | ⟨1, _⟩ => show win0_0.index t 1 * 512 + 1 * r.val = n.val; rw [e1]; omega
  | ⟨2, _⟩ => show win0_0.index t 2 * 2048 + 1 * j.val = j.val; rw [e2]; omega

/-- The feature slab: the whole feature matrix of batch `t / 4`. -/
theorem slab_blk (c : Dev nD) (t : Fin cfg0.N) (j : Fin 2048) (k : Fin 256) (b : Fin 8) (hb : b.val = t.val / 4) :
    (iblk m c 1 t : Vec Ideal S1x2048x256 .f32) (ix3 (0 : Fin 1) j k) = m ((c : Thread nD τ).loc main_arg0) (ix3 b j k) := by
  obtain ⟨e0, e1, e2⟩ := idx1 t
  unfold iblk
  rw [View.read_apply]
  show V m c main_arg0 _ = m (c.tc.loc main_arg0) _
  unfold V
  congr 1
  funext a
  apply Fin.ext
  match a with
  | ⟨0, _⟩ => show win0_1.index t 0 * 1 + 1 * 0 = b.val; rw [e0]; omega
  | ⟨1, _⟩ => show win0_1.index t 1 * 2048 + 1 * j.val = j.val; rw [e1]; omega
  | ⟨2, _⟩ => show win0_1.index t 2 * 256 + 1 * k.val = k.val; rw [e2]; omega

/-- The message weights: the whole array. -/
theorem msgW_blk (c : Dev nD) (t : Fin cfg0.N) : (iblk m c 2 t : Vec Ideal S256x256 .f32) = m ((c : Thread nD τ).loc main_arg2) := by
  funext j
  unfold iblk
  rw [View.read_apply]
  show V m c main_arg2 _ = m (c.tc.loc main_arg2) _
  unfold V
  congr 1
  funext a
  apply Fin.ext
  match a with
  | ⟨0, _⟩ => show win0_2.index t 0 * 256 + 1 * (j 0).val = (j 0).val; rw [(idx2 t).1]; omega
  | ⟨1, _⟩ => show win0_2.index t 1 * 256 + 1 * (j 1).val = (j 1).val; rw [(idx2 t).2]; omega

/-- The message bias: the whole array. -/
theorem msgB_blk (c : Dev nD) (t : Fin cfg0.N) : (iblk m c 3 t : Vec Ideal S256 .f32) = m ((c : Thread nD τ).loc main_arg3) := by
  funext j
  unfold iblk
  rw [View.read_apply]
  show V m c main_arg3 _ = m (c.tc.loc main_arg3) _
  unfold V
  congr 1
  funext a
  apply Fin.ext
  match a with
  | ⟨0, _⟩ => show win0_3.index t 0 * 256 + 1 * (j 0).val = (j 0).val; rw [(idx3 t)]; omega

/-- The normalisation's scale: the whole array. -/
theorem lnG_blk (c : Dev nD) (t : Fin cfg0.N) : (iblk m c 4 t : Vec Ideal S512 .f32) = m ((c : Thread nD τ).loc main_arg4) := by
  funext j
  unfold iblk
  rw [View.read_apply]
  show V m c main_arg4 _ = m (c.tc.loc main_arg4) _
  unfold V
  congr 1
  funext a
  apply Fin.ext
  match a with
  | ⟨0, _⟩ => show win0_4.index t 0 * 512 + 1 * (j 0).val = (j 0).val; rw [(idx4 t)]; omega

/-- The normalisation's shift: the whole array. -/
theorem lnB_blk (c : Dev nD) (t : Fin cfg0.N) : (iblk m c 5 t : Vec Ideal S512 .f32) = m ((c : Thread nD τ).loc main_arg5) := by
  funext j
  unfold iblk
  rw [View.read_apply]
  show V m c main_arg5 _ = m (c.tc.loc main_arg5) _
  unfold V
  congr 1
  funext a
  apply Fin.ext
  match a with
  | ⟨0, _⟩ => show win0_5.index t 0 * 512 + 1 * (j 0).val = (j 0).val; rw [(idx5 t)]; omega

/-- The first layer's weights: the whole array. -/
theorem w1_blk (c : Dev nD) (t : Fin cfg0.N) : (iblk m c 6 t : Vec Ideal S512x256 .f32) = m ((c : Thread nD τ).loc main_arg6) := by
  funext j
  unfold iblk
  rw [View.read_apply]
  show V m c main_arg6 _ = m (c.tc.loc main_arg6) _
  unfold V
  congr 1
  funext a
  apply Fin.ext
  match a with
  | ⟨0, _⟩ => show win0_6.index t 0 * 512 + 1 * (j 0).val = (j 0).val; rw [(idx6 t).1]; omega
  | ⟨1, _⟩ => show win0_6.index t 1 * 256 + 1 * (j 1).val = (j 1).val; rw [(idx6 t).2]; omega

/-- The first layer's bias: the whole array. -/
theorem b1_blk (c : Dev nD) (t : Fin cfg0.N) : (iblk m c 7 t : Vec Ideal S256 .f32) = m ((c : Thread nD τ).loc main_arg7) := by
  funext j
  unfold iblk
  rw [View.read_apply]
  show V m c main_arg7 _ = m (c.tc.loc main_arg7) _
  unfold V
  congr 1
  funext a
  apply Fin.ext
  match a with
  | ⟨0, _⟩ => show win0_7.index t 0 * 256 + 1 * (j 0).val = (j 0).val; rw [(idx7 t)]; omega

/-- The second layer's weights: the whole array. -/
theorem w2_blk (c : Dev nD) (t : Fin cfg0.N) : (iblk m c 8 t : Vec Ideal S256x256 .f32) = m ((c : Thread nD τ).loc main_arg8) := by
  funext j
  unfold iblk
  rw [View.read_apply]
  show V m c main_arg8 _ = m (c.tc.loc main_arg8) _
  unfold V
  congr 1
  funext a
  apply Fin.ext
  match a with
  | ⟨0, _⟩ => show win0_8.index t 0 * 256 + 1 * (j 0).val = (j 0).val; rw [(idx8 t).1]; omega
  | ⟨1, _⟩ => show win0_8.index t 1 * 256 + 1 * (j 1).val = (j 1).val; rw [(idx8 t).2]; omega

/-- The second layer's bias: the whole array. -/
theorem b2_blk (c : Dev nD) (t : Fin cfg0.N) : (iblk m c 9 t : Vec Ideal S256 .f32) = m ((c : Thread nD τ).loc main_arg9) := by
  funext j
  unfold iblk
  rw [View.read_apply]
  show V m c main_arg9 _ = m (c.tc.loc main_arg9) _
  unfold V
  congr 1
  funext a
  apply Fin.ext
  match a with
  | ⟨0, _⟩ => show win0_9.index t 0 * 256 + 1 * (j 0).val = (j 0).val; rw [(idx9 t)]; omega

/-! ## The argument arrays, typed by their shapes -/

abbrev arr0 (c : Dev nD) : S8x2048x256.Idx → EReal := m ((c : Thread nD τ).loc main_arg0)
abbrev arr1 (c : Dev nD) : S8x2048x2048.Idx → EReal := m ((c : Thread nD τ).loc main_arg1)
abbrev arr2 (c : Dev nD) : S256x256.Idx → EReal := m ((c : Thread nD τ).loc main_arg2)
abbrev arr3 (c : Dev nD) : S256.Idx → EReal := m ((c : Thread nD τ).loc main_arg3)
abbrev arr4 (c : Dev nD) : S512.Idx → EReal := m ((c : Thread nD τ).loc main_arg4)
abbrev arr5 (c : Dev nD) : S512.Idx → EReal := m ((c : Thread nD τ).loc main_arg5)
abbrev arr6 (c : Dev nD) : S512x256.Idx → EReal := m ((c : Thread nD τ).loc main_arg6)
abbrev arr7 (c : Dev nD) : S256.Idx → EReal := m ((c : Thread nD τ).loc main_arg7)
abbrev arr8 (c : Dev nD) : S256x256.Idx → EReal := m ((c : Thread nD τ).loc main_arg8)
abbrev arr9 (c : Dev nD) : S256.Idx → EReal := m ((c : Thread nD τ).loc main_arg9)

/-- The kernel's result array as a function of the argument arrays. -/
abbrev result (c : Dev nD) : S8x2048x256.Idx → EReal :=
  layerOut aggAfter (arr0 m c) (arr1 m c) (arr2 m c) (arr3 m c) (arr4 m c) (arr5 m c) (arr6 m c) (arr7 m c) (arr8 m c) (arr9 m c)

/-! ## The tile's feature rows and the batch's messages -/

/-- The tile's feature rows: rows `512 · (t % 4) + r` of batch `t / 4`. -/
theorem tileRows_apply (c : Dev nD) (t : Fin cfg0.N) (r : Fin 512) (k : Fin 256) (b : Fin 8) (n : Fin 2048)
    (hb : b.val = t.val / 4) (hn : n.val = 512 * (t.val % 4) + r.val) :
    tileRows (grid0.coords t) (iblk m c 1 t) (ix3 (0 : Fin 1) r k) = arr0 m c (ix3 b n k) := by
  have hq := tile_coord t
  have e : (Rect.unit (s := S1x2048x256) (k0_off1 (grid0.coords t)) S1x512x256.size (k0_off1_inb (grid0.coords t))).emb
      (ix3 (0 : Fin 1) r k) = ix3 (0 : Fin 1) n k := by
    funext a
    apply Fin.ext
    rw [Rect.emb_apply]
    show k0_off1 (grid0.coords t) a + 1 * ((ix3 (0 : Fin 1) r k : S1x512x256.Idx) a).val = ((ix3 (0 : Fin 1) n k : S1x2048x256.Idx) a).val
    rw [k0_off1_eq]
    match a with
    | ⟨0, _⟩ => rfl
    | ⟨1, _⟩ => show 512 * (grid0.coords t 1).val + 1 * r.val = n.val; rw [hq]; omega
    | ⟨2, _⟩ => show 0 + 1 * k.val = k.val; omega
  exact (congrArg (iblk m c 1 t : Vec Ideal S1x2048x256 .f32) e).trans (slab_blk m c t n k b hb)

/-- The messages computed from a point's blocks are the messages of batch `t / 4`. -/
theorem messages_blk (c : Dev nD) (t : Fin cfg0.N) (j : Fin 2048) (d : Fin 256) (b : Fin 8) (hb : b.val = t.val / 4) :
    k0_pay2 (F := Ideal) (iblk m c 1 t) (iblk m c 2 t) (iblk m c 3 t) (ix2 j d)
      = batchMessages (arr0 m c) (arr2 m c) (arr3 m c) b j d := by
  refine (messages_apply (iblk m c 1 t) (iblk m c 2 t) (iblk m c 3 t) j d).trans ?_
  unfold batchMessages
  exact msgRow_congr (funext fun k => slab_blk m c t j k b hb)
    (funext fun k => funext fun d => congrFun (msgW_blk m c t) (ix2 k d))
    (funext fun d => congrFun (msgB_blk m c t) (ix1 d)) d

/-- THE SCRATCH after point `n` holds the messages of batch `n / 4`: the batch's first point computes them, a later
    point keeps what the point before left. -/
theorem scratch_at (c : Dev nD) : ∀ (n : ℕ) (h : n < cfg0.N) (j : Fin 2048) (d : Fin 256) (b : Fin 8), b.val = n / 4 →
    (outsAt0 m c n h).2 (ix2 j d) = batchMessages (arr0 m c) (arr2 m c) (arr3 m c) b j d
  | 0, h, j, d, b, hb => by
    have hs := congrArg Prod.snd (outsAt0_A m c ⟨0, h⟩ rfl)
    dsimp only at hs
    rw [hs, scratch_first]
    exact messages_blk m c ⟨0, h⟩ j d b hb
  | n + 1, h, j, d, b, hb => by
    by_cases h0 : (n + 1) % 4 = 0
    · have hs := congrArg Prod.snd (outsAt0_A m c ⟨n + 1, h⟩ h0)
      dsimp only at hs
      rw [hs, scratch_first]
      exact messages_blk m c ⟨n + 1, h⟩ j d b hb
    · have hs := congrArg Prod.snd (outsAt0_B m c ⟨n + 1, h⟩ h0)
      dsimp only at hs
      rw [hs]
      show (outsAt0 m c n _).2 (ix2 j d) = _
      exact scratch_at c n _ j d b (by omega)

/-! ## What a point writes back, the cover, and the run -/

/-- WHAT POINT `t` WRITES BACK is block `t` of the result function of the argument arrays. -/
theorem flushed_eq (c : Dev nD) (t : Fin cfg0.N) :
    (dats m 0 c).flushed 10 t = ((cfg0.win 10).blk t).view.read (Elt Ideal) (result m c) := by
  show (cfg0.win 10).cut (grid0.coords t) ((dats m 0 c).after 10 t) = _
  rw [after0_10]
  funext y
  show ((outsAt0 m c t.val t.isLt).1 : Vec Ideal S1x512x256 .f32) y = result m c (((cfg0.win 10).blk t).view.emb y)
  obtain ⟨u, r, d, rfl⟩ : ∃ (u : Fin 1) (r : Fin 512) (d : Fin 256), y = ix3 u r d := ⟨y 0, y 1, y 2, eq_ix3 y⟩
  have hN : t.val < 32 := lt_of_lt_of_eq t.isLt (show cfg0.N = 32 from N_0)
  have hbq : t.val / 4 < 8 := by omega
  have hnq : 512 * (t.val % 4) + r.val < 2048 := by have := r.isLt; omega
  have hemb : ((cfg0.win 10).blk t).view.emb (ix3 u r d)
      = ix3 (⟨t.val / 4, hbq⟩ : Fin 8) (⟨512 * (t.val % 4) + r.val, hnq⟩ : Fin 2048) d := by
    obtain ⟨e0, e1, e2⟩ := idx10 t
    funext a
    apply Fin.ext
    match a with
    | ⟨0, _⟩ => show win0_10.index t 0 * 1 + 1 * u.val = t.val / 4; rw [e0]; have := u.isLt; omega
    | ⟨1, _⟩ => show win0_10.index t 1 * 512 + 1 * r.val = 512 * (t.val % 4) + r.val; rw [e1]; omega
    | ⟨2, _⟩ => show win0_10.index t 2 * 256 + 1 * d.val = d.val; rw [e2]; omega
  rw [hemb]
  show _ = nodeOut aggAfter (arr0 m c) (arr1 m c) (arr2 m c) (arr3 m c) (arr4 m c) (arr5 m c) (arr6 m c) (arr7 m c) (arr8 m c)
    (arr9 m c) (⟨t.val / 4, hbq⟩ : Fin 8) (⟨512 * (t.val % 4) + r.val, hnq⟩ : Fin 2048) d
  unfold nodeOut
  -- the parameters and the tile's own rows, whichever case the point is in
  have eV : (fun k => tileRows (grid0.coords t) (iblk m c 1 t) (ix3 (0 : Fin 1) r k))
      = fun k => arr0 m c (ix3 (⟨t.val / 4, hbq⟩ : Fin 8) (⟨512 * (t.val % 4) + r.val, hnq⟩ : Fin 2048) k) :=
    funext fun k => tileRows_apply m c t r k _ _ rfl rfl
  have eE : (fun j => (iblk m c 0 t : Vec Ideal S1x512x2048 .f32) (ix3 (0 : Fin 1) r j))
      = fun j => arr1 m c (ix3 (⟨t.val / 4, hbq⟩ : Fin 8) (⟨512 * (t.val % 4) + r.val, hnq⟩ : Fin 2048) j) :=
    funext fun j => logits_blk m c t r j _ _ rfl rfl
  have e4 : (fun k => (iblk m c 4 t : Vec Ideal S512 .f32) (ix1 k)) = fun k => arr4 m c (ix1 k) :=
    funext fun k => congrFun (lnG_blk m c t) (ix1 k)
  have e5 : (fun k => (iblk m c 5 t : Vec Ideal S512 .f32) (ix1 k)) = fun k => arr5 m c (ix1 k) :=
    funext fun k => congrFun (lnB_blk m c t) (ix1 k)
  have e6 : (fun k l => (iblk m c 6 t : Vec Ideal S512x256 .f32) (ix2 k l)) = fun k l => arr6 m c (ix2 k l) :=
    funext fun k => funext fun l => congrFun (w1_blk m c t) (ix2 k l)
  have e7 : (fun k => (iblk m c 7 t : Vec Ideal S256 .f32) (ix1 k)) = fun k => arr7 m c (ix1 k) :=
    funext fun k => congrFun (b1_blk m c t) (ix1 k)
  have e8 : (fun k l => (iblk m c 8 t : Vec Ideal S256x256 .f32) (ix2 k l)) = fun k l => arr8 m c (ix2 k l) :=
    funext fun k => funext fun l => congrFun (w2_blk m c t) (ix2 k l)
  have e9 : (fun k => (iblk m c 9 t : Vec Ideal S256 .f32) (ix1 k)) = fun k => arr9 m c (ix1 k) :=
    funext fun k => congrFun (b2_blk m c t) (ix1 k)
  by_cases h0 : t.val % 4 = 0
  · have ho := congrArg Prod.fst (outsAt0_A m c t h0)
    dsimp only at ho
    rw [ho, out_first]
    refine (body_apply _ _ _ _ _ _ _ _ _ u r d).trans ?_
    have eM : (fun j l => k0_pay2 (F := Ideal) (iblk m c 1 t) (iblk m c 2 t) (iblk m c 3 t) (ix2 j l))
        = batchMessages (arr0 m c) (arr2 m c) (arr3 m c) (⟨t.val / 4, hbq⟩ : Fin 8) :=
      funext fun j => funext fun l => messages_blk m c t j l _ rfl
    exact rowOut_congr eV (congrArg₂ aggAfter eE eM) e4 e5 e6 e7 e8 e9 d
  · have ho := congrArg Prod.fst (outsAt0_B m c t h0)
    dsimp only at ho
    rw [ho, out_later]
    refine (body_apply _ _ _ _ _ _ _ _ _ u r d).trans ?_
    have hp : t.val - 1 < cfg0.N := Nat.lt_of_le_of_lt (Nat.sub_le _ _) t.isLt
    have eM : (fun j l => (outsAt0 m c (t.val - 1) hp).2 (ix2 j l))
        = batchMessages (arr0 m c) (arr2 m c) (arr3 m c) (⟨t.val / 4, hbq⟩ : Fin 8) :=
      funext fun j => funext fun l => scratch_at m c (t.val - 1) hp j l _ (by show t.val / 4 = (t.val - 1) / 4; omega)
    exact rowOut_congr eV (congrArg₂ aggAfter eE eM) e4 e5 e6 e7 e8 e9 d

/-- An index of the result array is in point `t`'s block iff each coordinate is in the block's range on its axis. -/
theorem mem_blk (t : Fin cfg0.N) (i : S8x2048x256.Idx) :
    i ∈ ((cfg0.win 10).blk t).view.set ↔ ∀ a : Fin 3, win0_10.index t a * S1x512x256.size a ≤ (i a).val
      ∧ (i a).val < win0_10.index t a * S1x512x256.size a + S1x512x256.size a := by
  show i ∈ ((View.whole main_v0).slice (win0_10.rect t)).set ↔ _
  rw [View.set_slice_whole, Rect.mem_set_unit]
  exact Iff.rfl

/-- Every index of the result array is in some point's block: node `n` of batch `b` in that of point `4 b + n / 512`. -/
theorem cover (i : S8x2048x256.Idx) : ∃ t : Fin cfg0.N, (cfg0.win 10).flush t = true ∧ i ∈ ((cfg0.win 10).blk t).view.set := by
  have h0 : (i 0).val < 8 := (i 0).isLt
  have h1 : (i 1).val < 2048 := (i 1).isLt
  have h2 : (i 2).val < 256 := (i 2).isLt
  have hN : cfg0.N = 32 := N_0
  refine ⟨⟨4 * (i 0).val + (i 1).val / 512, by omega⟩, flush0_10 _, ?_⟩
  rw [mem_blk]
  obtain ⟨e0, e1, e2⟩ := idx10 ⟨4 * (i 0).val + (i 1).val / 512, by omega⟩
  intro a
  match a with
  | ⟨0, _⟩ =>
    show win0_10.index _ 0 * 1 ≤ (i 0).val ∧ (i 0).val < win0_10.index _ 0 * 1 + 1
    rw [e0]; dsimp only; omega
  | ⟨1, _⟩ =>
    show win0_10.index _ 1 * 512 ≤ (i 1).val ∧ (i 1).val < win0_10.index _ 1 * 512 + 512
    rw [e1]; dsimp only; omega
  | ⟨2, _⟩ =>
    show win0_10.index _ 2 * 256 ≤ (i 2).val ∧ (i 2).val < win0_10.index _ 2 * 256 + 256
    rw [e2]; omega

/-- THE RESULT ARRAY after the run is the result function of the argument arrays. -/
theorem final (c : Dev nD) : (dats m 0 c).arrAt 10 cfg0.N = result m c :=
  (dats m 0 c).arrAt_eq_of_cover 10 (result m c) (fun t _ => flushed_eq m c t) cover

/-- The run, read: the result array at the result function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.Blocks

end
-- ==== Proof.RefRow.lean ====
import proofs.«127817_j23845658427999_2_alg».proof.Proof.RefRead
import proofs.«127817_j23845658427999_2_alg».proof.Proof.Spec
import Idealize.ShloMosaic.Lib.Pipeline.Value
import Idealize.ShloMosaic.Lib.ValueIdx
import Idealize.ShloMosaic.PureOps.Ideal.Laws

/-!
# The reference's stages, read row by row

Each stage of the reference program, read at node `n` of batch `b`: the softmax of the node's logit row (each weight
normalised by the row's weight sum before the contraction with the messages `V · W + b` of the batch), the 512 lanes
of features and aggregate, the normalisation over those lanes, and the two linear layers with the residual — the
last stage is `rowOut` of the node's feature row and `aggBefore` of its logit row.
-/

noncomputable section

namespace Cert.ReferenceIdeal.RefRow

open Cert.ReferenceIdeal Cert.ReferenceIdeal.Gen Cert.ReferenceIdeal.Read Idealize.ShloMosaic Idealize.ShloMosaic.ValueIdx Cert.GnnRow

variable (x0 : (⟨S8x2048x256, .f32⟩ : BufTy).Contents (Elt Ideal)) (x1 : (⟨S8x2048x2048, .f32⟩ : BufTy).Contents (Elt Ideal))
  (x2 : (⟨S256x256, .f32⟩ : BufTy).Contents (Elt Ideal)) (x3 : (⟨S256, .f32⟩ : BufTy).Contents (Elt Ideal))
  (x4 x5 : (⟨S512, .f32⟩ : BufTy).Contents (Elt Ideal)) (x6 : (⟨S512x256, .f32⟩ : BufTy).Contents (Elt Ideal))
  (x7 : (⟨S256, .f32⟩ : BufTy).Contents (Elt Ideal)) (x8 : (⟨S256x256, .f32⟩ : BufTy).Contents (Elt Ideal))
  (x9 : (⟨S256, .f32⟩ : BufTy).Contents (Elt Ideal))

/-- Putting neighbour `k` back into the reduced index `(b, n)` gives `(b, n, k)`. -/
theorem lift_last3 (h : S8x2048x2048.Reduces [2] S8x2048) (b : Fin 8) (n : Fin 2048) (k : Fin (S8x2048x2048.size 2)) :
    h.lift (ix2 b n) k = ix3 b n (⟨k.val, k.isLt⟩ : Fin 2048) := by
  funext c; apply Fin.ext
  fin_cases c <;> rfl

/-- The logit row of node `n` of batch `b`. -/
abbrev logits (b : Fin 8) (n : Fin 2048) : Fin 2048 → EReal := fun j => x1 (ix3 b n j)
/-- The messages of batch `b`. -/
abbrev messages (b : Fin 8) : Fin 2048 → Fin 256 → EReal := fun j d =>
  msgRow (fun k => x0 (ix3 b j k)) (fun k d => x2 (ix2 k d)) (fun d => x3 (ix1 d)) d
/-- The feature row of node `n` of batch `b`. -/
abbrev feats (b : Fin 8) (n : Fin 2048) : Fin 256 → EReal := fun k => x0 (ix3 b n k)

/-- The row maximum the softmax subtracts. -/
theorem rowMax_at (b : Fin 8) (n : Fin 2048) : val_main_v2 (F := Ideal) x1 (ix2 b n) = rowMax (logits x1 b n) := by
  rw [val_main_v2_apply, val_main_v1_apply, val_main_cst_0_apply]
  have h0 : val_main_v0 (F := Ideal) x1 (ix2 b n) = rowMax (logits x1 b n) := by
    unfold val_main_v0
    refine (Host.reduce_eq_fold_single (α := Ideal .f32) FloatOps.maximumf (x1 : FVec Ideal S8x2048x2048 .f32) _
      reducesTo_S8x2048x2048_S8x2048_d2 (by decide) h_S_ (ix2 b n)).trans ?_
    exact congrArg (fun f => Finset.fold max negInf f (Finset.univ : Finset (Fin 2048)))
      (funext fun k => congrArg x1 (lift_last3 _ b n k))
  rw [h0]
  show max negInf (Finset.univ.fold max negInf _) = Finset.univ.fold max negInf _
  exact max_eq_right ((Finset.le_fold_max negInf).mpr (Or.inl le_rfl))

/-- The unnormalised weights. -/
theorem wt_at (b : Fin 8) (n j : Fin 2048) : val_main_v6 (F := Ideal) x1 (ix3 b n j) = wt (logits x1 b n) j := by
  rw [val_main_v6_apply, val_main_v5_apply, val_main_v4_apply, val_main_v3_apply]
  have e : idx_main_v3 (idx_main_v4 (ix3 b n j)) = ix2 b n :=
    funext fun a => Fin.ext (by match a with | ⟨0, _⟩ => rfl | ⟨1, _⟩ => rfl)
  rw [e, rowMax_at]
  rfl

/-- The row's weight sum. -/
theorem wsum_at (b : Fin 8) (n : Fin 2048) : val_main_v7 (F := Ideal) x1 (ix2 b n) = ∑ j, wt (logits x1 b n) j := by
  rw [val_main_v7_apply, val_main_cst_1_apply]
  show Ideal.ofBits .f32 0x00000000#32 + _ = _
  rw [Ideal.ofBits_zero_f32, zero_add]
  refine Finset.sum_congr rfl fun j _ => ?_
  have e : idx_main_v7 (ix2 b n) j = ix3 b n j :=
    funext fun a => Fin.ext (by match a with | ⟨0, _⟩ => rfl | ⟨1, _⟩ => rfl | ⟨2, _⟩ => rfl)
  rw [e, wt_at]

/-- The softmax. -/
theorem softmax_at (b : Fin 8) (n j : Fin 2048) :
    val_main_v10 (F := Ideal) x1 (ix3 b n j) = Ideal.div (wt (logits x1 b n) j) (∑ j, wt (logits x1 b n) j) := by
  rw [val_main_v10_apply, val_main_v9_apply, val_main_v8_apply]
  have e : idx_main_v8 (idx_main_v9 (ix3 b n j)) = ix2 b n :=
    funext fun a => Fin.ext (by match a with | ⟨0, _⟩ => rfl | ⟨1, _⟩ => rfl)
  rw [e, wt_at, wsum_at]
  rfl

/-- The messages. -/
theorem messages_at (b : Fin 8) (j : Fin 2048) (d : Fin 256) :
    val_main_v14 (F := Ideal) x0 x2 x3 (ix3 b j d) = messages x0 x2 x3 b j d := by
  rw [val_main_v14_apply, val_main_v11_apply, val_main_v13_apply, val_main_v12_apply]
  unfold messages msgRow
  refine congrArg₂ (fun a b : EReal => a + b) (Finset.sum_congr rfl fun k _ => ?_) ?_
  · exact congrArg₂ (fun a b : EReal => a * b)
      (congrArg x0 (funext fun a => Fin.ext (by match a with | ⟨0, _⟩ => rfl | ⟨1, _⟩ => rfl | ⟨2, _⟩ => rfl)))
      (congrArg x2 (funext fun a => Fin.ext (by match a with | ⟨0, _⟩ => rfl | ⟨1, _⟩ => rfl)))
  · exact congrArg x3 (funext fun a => Fin.ext (by match a with | ⟨0, _⟩ => rfl))

/-- The aggregate: each weight normalised, then contracted with the messages. -/
theorem aggregate_at (b : Fin 8) (n : Fin 2048) (d : Fin 256) :
    val_main_v15 (F := Ideal) x0 x1 x2 x3 (ix3 b n d) = aggBefore (logits x1 b n) (messages x0 x2 x3 b) d := by
  rw [val_main_v15_apply]
  unfold aggBefore
  refine Finset.sum_congr rfl fun j _ => ?_
  have el : lidx_main_v15 (ix3 b n d) j = ix3 b n j :=
    funext fun a => Fin.ext (by match a with | ⟨0, _⟩ => rfl | ⟨1, _⟩ => rfl | ⟨2, _⟩ => rfl)
  have er : ridx_main_v15 (ix3 b n d) j = ix3 b j d :=
    funext fun a => Fin.ext (by match a with | ⟨0, _⟩ => rfl | ⟨1, _⟩ => rfl | ⟨2, _⟩ => rfl)
  rw [el, er, softmax_at, messages_at]

/-- The 512 lanes of node `n` of batch `b`. -/
abbrev refLanes (b : Fin 8) (n : Fin 2048) : Fin 512 → EReal :=
  lanesOf (feats x0 b n) (aggBefore (logits x1 b n) (messages x0 x2 x3 b))

/-- The concatenation of the features and the aggregate. -/
theorem lanes_at (b : Fin 8) (n : Fin 2048) (c : Fin 512) :
    val_main_v16 (F := Ideal) x0 x1 x2 x3 (ix3 b n c) = refLanes x0 x1 x2 x3 b n c := by
  unfold val_main_v16 refLanes lanesOf
  by_cases hc : c.val < 256
  · rw [dif_pos hc]
    exact concatenate_pair_apply_left (t := S8x2048x512) (s₁ := S8x2048x256) (s₂ := S8x2048x256) 2 _ _ _ (ix3 b n c) rfl
      (ix3 b n (⟨c.val, hc⟩ : Fin 256)) (fun a => by match a with | ⟨0, _⟩ => rfl | ⟨1, _⟩ => rfl | ⟨2, _⟩ => rfl)
  · rw [dif_neg hc]
    have hc' : c.val - 256 < 256 := by have := c.isLt; omega
    refine (concatenate_pair_apply_right (t := S8x2048x512) (s₁ := S8x2048x256) (s₂ := S8x2048x256) 2 _ _ _ (ix3 b n c) rfl rfl
      (ix3 b n (⟨c.val - 256, hc'⟩ : Fin 256))
      (fun a ha => by match a with | ⟨0, _⟩ => rfl | ⟨1, _⟩ => rfl | ⟨2, _⟩ => exact absurd rfl ha)
      (by show (c.val - 256) + 256 = c.val; omega)).trans ?_
    exact aggregate_at x0 x1 x2 x3 b n (⟨c.val - 256, hc'⟩ : Fin 256)

/-- The keep-dims mean over the lanes. -/
theorem mean_at (b : Fin 8) (n : Fin 2048) (u : Fin 1) :
    val_main_v20 (F := Ideal) x0 x1 x2 x3 (ix3 b n u) = mean (refLanes x0 x1 x2 x3 b n) := by
  rw [val_main_v20_apply, val_main_v18_apply, val_main_v17_apply, val_main_v19_apply, val_main_cst_3_apply, val_main_cst_2_apply]
  unfold mean
  show Ideal.div (Ideal.ofBits .f32 0x00000000#32 + _) _ = _
  rw [Ideal.ofBits_zero_f32, zero_add]
  refine congrArg₂ Ideal.div (Finset.sum_congr rfl fun c _ => ?_) rfl
  have e : idx_main_v17 (idx_main_v18 (ix3 b n u)) c = ix3 b n c :=
    funext fun a => Fin.ext (by match a with | ⟨0, _⟩ => rfl | ⟨1, _⟩ => rfl | ⟨2, _⟩ => rfl)
  rw [e, lanes_at]

/-- The centred lanes (the stage the variance squares). -/
theorem centred_at (b : Fin 8) (n : Fin 2048) (c : Fin 512) :
    val_main_v22 (F := Ideal) x0 x1 x2 x3 (ix3 b n c) = refLanes x0 x1 x2 x3 b n c - mean (refLanes x0 x1 x2 x3 b n) := by
  rw [val_main_v22_apply, val_main_v21_apply, lanes_at]
  have e : idx_main_v21 (ix3 b n c) = ix3 b n (0 : Fin 1) :=
    funext fun a => Fin.ext (by match a with | ⟨0, _⟩ => rfl | ⟨1, _⟩ => rfl | ⟨2, _⟩ => rfl)
  rw [e, mean_at]
  rfl

/-- The centred lanes (the stage the scale multiplies). -/
theorem centred'_at (b : Fin 8) (n : Fin 2048) (c : Fin 512) :
    val_main_v29 (F := Ideal) x0 x1 x2 x3 (ix3 b n c) = refLanes x0 x1 x2 x3 b n c - mean (refLanes x0 x1 x2 x3 b n) := by
  rw [val_main_v29_apply, val_main_v28_apply, lanes_at]
  have e : idx_main_v28 (ix3 b n c) = ix3 b n (0 : Fin 1) :=
    funext fun a => Fin.ext (by match a with | ⟨0, _⟩ => rfl | ⟨1, _⟩ => rfl | ⟨2, _⟩ => rfl)
  rw [e, mean_at]
  rfl

/-- `rsqrt (variance + ε)`. -/
theorem invStd_at (b : Fin 8) (n : Fin 2048) (u : Fin 1) :
    val_main_v32 (F := Ideal) x0 x1 x2 x3 (ix3 b n u) = invStd (refLanes x0 x1 x2 x3 b n) := by
  rw [val_main_v32_apply, val_main_v31_apply, val_main_v27_apply, val_main_v25_apply, val_main_v24_apply, val_main_v26_apply,
    val_main_v30_apply, val_main_cst_4_apply, val_main_cst_5_apply, val_main_cst_6_apply]
  unfold invStd
  show Ideal.rsqrt (Ideal.div (Ideal.ofBits .f32 0x00000000#32 + _) _ + _) = _
  rw [Ideal.ofBits_zero_f32, zero_add]
  refine congrArg Ideal.rsqrt (congrArg₂ (fun a b : EReal => a + b) (congrArg₂ Ideal.div (Finset.sum_congr rfl fun c _ => ?_) rfl) rfl)
  have e : idx_main_v24 (idx_main_v25 (ix3 b n u)) c = ix3 b n c :=
    funext fun a => Fin.ext (by match a with | ⟨0, _⟩ => rfl | ⟨1, _⟩ => rfl | ⟨2, _⟩ => rfl)
  rw [e, val_main_v23_apply, centred_at]
  rfl

/-- The normalised, scaled and shifted lanes. -/
theorem normed_at (b : Fin 8) (n : Fin 2048) (c : Fin 512) :
    val_main_v40 (F := Ideal) x0 x1 x2 x3 x4 x5 (ix3 b n c)
      = normed (refLanes x0 x1 x2 x3 b n) (fun c => x4 (ix1 c)) (fun c => x5 (ix1 c)) c := by
  rw [val_main_v40_apply, val_main_v37_apply, val_main_v34_apply, val_main_v33_apply, val_main_v36_apply, val_main_v35_apply,
    val_main_v39_apply, val_main_v38_apply, centred'_at]
  have e : idx_main_v33 (ix3 b n c) = ix3 b n (0 : Fin 1) :=
    funext fun a => Fin.ext (by match a with | ⟨0, _⟩ => rfl | ⟨1, _⟩ => rfl | ⟨2, _⟩ => rfl)
  have e4 : idx_main_v35 (idx_main_v36 (ix3 b n c)) = ix1 c := funext fun a => Fin.ext (by match a with | ⟨0, _⟩ => rfl)
  have e5 : idx_main_v38 (idx_main_v39 (ix3 b n c)) = ix1 c := funext fun a => Fin.ext (by match a with | ⟨0, _⟩ => rfl)
  rw [e, invStd_at, e4, e5]
  rfl

/-- The hidden layer. -/
theorem hidden_at (b : Fin 8) (n : Fin 2048) (k : Fin 256) :
    val_main_v45 (F := Ideal) x0 x1 x2 x3 x4 x5 x6 x7 (ix3 b n k)
      = Cert.GnnRow.hidden (normed (refLanes x0 x1 x2 x3 b n) (fun c => x4 (ix1 c)) (fun c => x5 (ix1 c)))
          (fun c k => x6 (ix2 c k)) (fun k => x7 (ix1 k)) k := by
  rw [val_main_v45_apply, val_main_v44_apply, val_main_v41_apply, val_main_v43_apply, val_main_v42_apply,
    val_main_call0_v0_apply, val_main_call0_cst_apply]
  unfold Cert.GnnRow.hidden
  refine congrArg₂ (fun a b : EReal => max a b) (congrArg₂ (fun a b : EReal => a + b) (Finset.sum_congr rfl fun c _ => ?_) ?_) rfl
  · have el : lidx_main_v41 (ix3 b n k) c = ix3 b n c :=
      funext fun a => Fin.ext (by match a with | ⟨0, _⟩ => rfl | ⟨1, _⟩ => rfl | ⟨2, _⟩ => rfl)
    rw [el, normed_at]
    exact congrArg (fun t : EReal => _ * t) (congrArg x6 (funext fun a => Fin.ext (by match a with | ⟨0, _⟩ => rfl | ⟨1, _⟩ => rfl)))
  · exact congrArg x7 (funext fun a => Fin.ext (by match a with | ⟨0, _⟩ => rfl))

/-- THE REFERENCE'S RESULT at node `n` of batch `b`, lane `d`. -/
theorem result_at (b : Fin 8) (n : Fin 2048) (d : Fin 256) :
    val_main_v50 (F := Ideal) x0 x1 x2 x3 x4 x5 x6 x7 x8 x9 (ix3 b n d)
      = rowOut (feats x0 b n) (aggBefore (logits x1 b n) (messages x0 x2 x3 b))
          (fun c => x4 (ix1 c)) (fun c => x5 (ix1 c)) (fun c k => x6 (ix2 c k)) (fun k => x7 (ix1 k))
          (fun k d => x8 (ix2 k d)) (fun d => x9 (ix1 d)) d := by
  rw [val_main_v50_apply, val_main_v49_apply, val_main_v46_apply, val_main_v48_apply, val_main_v47_apply]
  unfold rowOut
  refine congrArg₂ (fun a b : EReal => a + b) rfl (congrArg₂ (fun a b : EReal => a + b) (Finset.sum_congr rfl fun k _ => ?_) ?_)
  · have el : lidx_main_v46 (ix3 b n d) k = ix3 b n k :=
      funext fun a => Fin.ext (by match a with | ⟨0, _⟩ => rfl | ⟨1, _⟩ => rfl | ⟨2, _⟩ => rfl)
    rw [el, hidden_at]
    exact congrArg (fun t : EReal => _ * t) (congrArg x8 (funext fun a => Fin.ext (by match a with | ⟨0, _⟩ => rfl | ⟨1, _⟩ => rfl)))
  · exact congrArg x9 (funext fun a => Fin.ext (by match a with | ⟨0, _⟩ => rfl))

end Cert.ReferenceIdeal.RefRow

end
-- ==== Proof.RefResult.lean ====
import proofs.«127817_j23845658427999_2_alg».proof.Proof.RefRun
import proofs.«127817_j23845658427999_2_alg».proof.Proof.RefRow
import proofs.«127817_j23845658427999_2_alg».proof.Proof.Arrays

/-!
# The reference's result array

The composed term the reference's run ends with is its last stage, and that stage, read at every node, is
`layerOut aggBefore` of the argument arrays: the softmax normalises each weight before the contraction.
-/

noncomputable section

namespace Cert.ReferenceIdeal.RefResult

open Cert.ReferenceIdeal Cert.ReferenceIdeal.Gen Cert.ReferenceIdeal.Read Idealize.ShloMosaic Idealize.ShloMosaic.ValueIdx
open Idealize.ShloMosaic.TcCoe Idealize.SL.Sem Cert.GnnRow

/-- The run's result term is the last stage. -/
theorem res_eq_stage (m : (ℓ : Loc nD τ sig) → Buf (Elt Ideal) ℓ) (c : Dev nD) :
    Cert.ReferenceIdeal.Value.res_main_v50 m c
      = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v50; rfl

/-- THE REFERENCE'S RESULT ARRAY as a function of the argument arrays. -/
theorem res_eq (m : (ℓ : Loc nD τ sig) → Buf (Elt Ideal) ℓ) (c : Dev nD) :
    Cert.ReferenceIdeal.Value.res_main_v50 m c
      = layerOut aggBefore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [res_eq_stage]
  funext i
  obtain ⟨b, n, d, rfl⟩ : ∃ (b : Fin 8) (n : Fin 2048) (d : Fin 256), i = ix3 b n d := ⟨i 0, i 1, i 2, eq_ix3 i⟩
  rw [Cert.ReferenceIdeal.RefRow.result_at, layerOut_ix3]
  rfl

end Cert.ReferenceIdeal.RefResult

end
-- ==== Proof.Finite.lean ====
import proofs.«127817_j23845658427999_2_alg».proof.Pre_finite_inputs
import Idealize.ShloMosaic.Lib.ReduceAll
import Idealize.ShloMosaic.Lib.Affine
import Idealize.ShloMosaic.Lib.ValueIdx
import Idealize.ShloMosaic.PureOps.Ideal.Laws

/-!
# The precondition gives real arrays

The precondition is the conjunction, over the ten argument arrays, of "every entry has `|x| < +∞`". At the ideal
instance an extended real with `|x| < ⊤` is a real, so under the precondition the features, the logits, the message
weights and the message bias are arrays of reals.
-/

noncomputable section

namespace Cert.Pre_finite_inputs.Real

open Cert.Pre_finite_inputs Idealize.ShloMosaic Idealize.ShloMosaic.ValueIdx

instance : Subsingleton S_.Idx := ⟨fun a b => funext fun d => d.elim0⟩

/-- The `+∞` pattern denotes the top of the extended reals. -/
theorem posInf_eq : Ideal.ofBits .f32 0x7F800000#32 = ⊤ := by
  simp [Ideal.ofBits, Ideal.ieee]

/-- An extended real whose absolute value is below `+∞` is a real. -/
theorem real_of_abs_lt (x : EReal) (h : FloatOps.cmpf (F := Ideal) (φ := .f32) .olt (FloatOps.hostAbsf x) (FloatOps.ofBits .f32 0x7F800000#32) = 1#1) :
    ∃ r : ℝ, x = r := by
  have h' : max x (-x) < ⊤ := by
    have : Ideal.cmp .olt (max x (-x)) (Ideal.ofBits .f32 0x7F800000#32) = 1#1 := h
    rw [posInf_eq] at this
    unfold Ideal.cmp at this
    by_contra hc
    simp [hc] at this
  have hx : x ≠ ⊤ := fun e => by rw [e] at h'; simp at h'
  have hx' : x ≠ ⊥ := fun e => by rw [e] at h'; simp at h'
  exact ⟨x.toReal, (EReal.coe_toReal hx hx').symm⟩

variable [Facts]

/-- One conjunct of the precondition: every entry of the array is a real. -/
theorem real_of_all {s : Shape} {axes : List (Fin s.rank)} (A : FVec Ideal s .f32) (hb : S_.BroadcastsInDim s (![] : Fin 0 → Fin s.rank))
    (hr : s.ReducesTo axes S_) (hu : 0 < S_.numel)
    (e : Host.reduce IntOp.andi (cmpf .olt (Host.absf A) (broadcastInDim s ![] hb (constant S_ .f32 0x7F800000#32)))
      (constantI S_ 1 1#1) hr hu ix0 = 1#1) (i : s.Idx) : ∃ r : ℝ, A i = r :=
  real_of_abs_lt (A i) (Host.reduce_andi_all _ _ hr hu ix0 e i)

/-- Under the precondition the features, the logits, the message weights and the message bias are real arrays. -/
theorem real_inputs (A0 : FVec Ideal S8x2048x256 .f32) (A1 : FVec Ideal S8x2048x2048 .f32) (A2 : FVec Ideal S256x256 .f32)
    (A3 : FVec Ideal S256 .f32) (A4 A5 : FVec Ideal S512 .f32) (A6 : FVec Ideal S512x256 .f32) (A7 : FVec Ideal S256 .f32)
    (A8 : FVec Ideal S256x256 .f32) (A9 : FVec Ideal S256 .f32)
    (h : fn (F := Ideal) A0 A1 A2 A3 A4 A5 A6 A7 A8 A9 = fun _ => 1#1) :
    (∀ i, ∃ r : ℝ, A0 i = r) ∧ (∀ i, ∃ r : ℝ, A1 i = r) ∧ (∀ i, ∃ r : ℝ, A2 i = r) ∧ (∀ i, ∃ r : ℝ, A3 i = r) := by
  have h48 := congrFun h ix0
  dsimp only [fn, fn_part1, fn_part2] at h48
  obtain ⟨h43, -⟩ := IntOp.andi_eq_one.1 h48
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨real_of_all A0 _ _ _ h3, real_of_all A1 _ _ _ h7, real_of_all A2 _ _ _ h12, real_of_all A3 _ _ _ h17⟩

end Cert.Pre_finite_inputs.Real

end
-- ==== Proof.lean ====
/-
  A graph layer's message passing — softmax over each node's logit row, aggregation of the neighbours' messages
  `V · W + b`, normalisation of the 512 lanes [features, aggregate], two linear layers with a ReLU, a residual — as ONE
  fused kernel over tiles of 512 nodes against the plain array program.

  The two programs differ in one law. The kernel contracts the UNNORMALISED weights `p j = exp (e j − max e)` with the
  messages and divides the aggregate by `Z = ∑ p` once; the reference divides every weight by `Z` first. Over the
  extended reals `(∑ⱼ p j · m j) / Z = ∑ⱼ (p j / Z) · m j` needs `p`, `Z` and the messages real and `Z ≠ 0`: the
  precondition makes the logits, features, message weights and bias real, every `p j` is then a positive real and
  `Z` a positive real. Everything else is the same operations in the same order: row maxima as folds of `max` from `−∞`,
  sums, matrix products, `x / 512`, `rsqrt`, `max (·, 0)`. The kernel keeps each batch's messages in a scratch carried
  across the batch's four tiles: by induction on the grid point the scratch holds the batch's messages.

  Both idealised programs end with `layerOut` of the argument arrays (Arrays.lean), the kernel with the aggregate
  normalised after the contraction (KernelBlocks.lean), the reference before (RefResult.lean); on real arrays they are
  one array (`layerOut_after_eq_before`). The ideal pass rewrote nothing, so `preserves` is `True`.
-/
import proofs.«127817_j23845658427999_2_alg».proof.Defs
import proofs.«127817_j23845658427999_2_alg».proof.Proof.Gen.Kernel
import proofs.«127817_j23845658427999_2_alg».proof.Proof.Gen.Kernel.Frame
import proofs.«127817_j23845658427999_2_alg».proof.Proof.Gen.KernelIdeal
import proofs.«127817_j23845658427999_2_alg».proof.Proof.Gen.KernelIdeal.Frame
import proofs.«127817_j23845658427999_2_alg».proof.Proof.Gen.KernelIdeal.Value
import proofs.«127817_j23845658427999_2_alg».proof.Proof.Gen.ReferenceIdeal
import proofs.«127817_j23845658427999_2_alg».proof.Proof.Gen.Pre_finite_inputs
import proofs.«127817_j23845658427999_2_alg».proof.Proof.KernelBlocks
import proofs.«127817_j23845658427999_2_alg».proof.Proof.RefResult
import proofs.«127817_j23845658427999_2_alg».proof.Proof.Finite
import Idealize.ShloMosaic.Adequacy
import Idealize.ShloMosaic.Init

noncomputable section

namespace Cert.Proof

open Idealize.ShloMosaic Idealize.ShloMosaic.TcCoe Idealize.SL.Sem Cert.GnnRow

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array is `layerOut aggAfter` of its arguments, the reference's `layerOut aggBefore` of arguments
    that agree; under the precondition the features, logits, message weights and bias are real, and the two are one array. -/
theorem algebraic : Cert.algebraic_KernelIdeal_ReferenceIdeal := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefResult.res_eq m' c]
  obtain ⟨a0, a1, a2, a3, a4, a5, a6, a7, a8, a9⟩ := hagree c
  rw [a0, a1, a2, a3, a4, a5, a6, a7, a8, a9]
  obtain ⟨r0, r1, r2, r3⟩ := Cert.Pre_finite_inputs.Real.real_inputs _ _ _ _ _ _ _ _ _ _ (hpre c)
  exact (layerOut_after_eq_before _ _ _ _ _ _ _ _ _ _ r0 r1 r2 r3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
